-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  main_v3
-- ==== Kernel.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x3 : Shape := ⟨2, ![1024, 3]⟩
abbrev S1024x1 : Shape := ⟨2, ![1024, 1]⟩
abbrev S1x1024 : Shape := ⟨2, ![1, 1024]⟩
abbrev S1024x1024 : Shape := ⟨2, ![1024, 1024]⟩
abbrev S67108864 : Shape := ⟨1, ![67108864]⟩
abbrev S524288 : Shape := ⟨1, ![524288]⟩
abbrev S67108864x1 : Shape := ⟨2, ![67108864, 1]⟩
abbrev S1x524288 : Shape := ⟨2, ![1, 524288]⟩
abbrev S2x524288 : Shape := ⟨2, ![2, 524288]⟩

abbrev nBuf : Space → Nat
  | .hbm => 130
  | .vmem => 10
  | .smem => 0
  | _ => 0

abbrev hbmTy0_0 (i : Nat) : BufTy := match i % 128 with
  | 0 => ⟨S8192x3, .f32⟩
  | 1 => ⟨S8192x3, .f32⟩
  | 2 => ⟨S_, .f32⟩
  | 3 => ⟨S8192, .f32⟩
  | 4 => ⟨S8192x1, .f32⟩
  | 5 => ⟨S1x8192, .f32⟩
  | 6 => ⟨S8192x8192, .i32⟩
  | 7 => ⟨S_, .i32⟩
  | 8 => ⟨S8192x8192, .i32⟩
  | 9 => ⟨S8192x8192, .i1⟩
  | 10 => ⟨S67108864, .i1⟩
  | 11 => ⟨S67108864, .i32⟩
  | 12 => ⟨S_, .i32⟩
  | 13 => ⟨S_, .i32⟩
  | 14 => ⟨S67108864, .i32⟩
  | 15 => ⟨S_, .i32⟩
  | 16 => ⟨S524288, .i32⟩
  | 17 => ⟨S_, .i32⟩
  | 18 => ⟨S_, .i32⟩
  | 19 => ⟨S67108864, .i32⟩
  | 20 => ⟨S67108864, .i32⟩
  | 21 => ⟨S_, .i32⟩
  | 22 => ⟨S67108864, .i32⟩
  | 23 => ⟨S67108864, .i1⟩
  | 24 => ⟨S_, .i32⟩
  | 25 => ⟨S67108864, .i32⟩
  | 26 => ⟨S67108864, .i32⟩
  | 27 => ⟨S67108864, .i32⟩
  | 28 => ⟨S67108864x1, .i32⟩
  | 29 => ⟨S_, .i32⟩
  | 30 => ⟨S67108864, .i32⟩
  | 31 => ⟨S524288, .i32⟩
  | 32 => ⟨S_, .i32⟩
  | 33 => ⟨S_, .i32⟩
  | 34 => ⟨S524288, .i32⟩
  | 35 => ⟨S_, .i32⟩
  | 36 => ⟨S524288, .i32⟩
  | 37 => ⟨S524288, .i32⟩
  | 38 => ⟨S524288, .i32⟩
  | 39 => ⟨S_, .i32⟩
  | 40 => ⟨S524288, .i32⟩
  | 41 => ⟨S524288, .i1⟩
  | 42 => ⟨S524288, .i32⟩
  | 43 => ⟨S524288, .i32⟩
  | 44 => ⟨S_, .i32⟩
  | 45 => ⟨S524288, .i32⟩
  | 46 => ⟨S524288, .i1⟩
  | 47 => ⟨S524288, .i1⟩
  | 48 => ⟨S_, .i32⟩
  | 49 => ⟨S524288, .i32⟩
  | 50 => ⟨S524288, .i32⟩
  | 51 => ⟨S524288, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S524288, .i32⟩
  | 59 => ⟨S524288, .i32⟩
  | 60 => ⟨S_, .i32⟩
  | 61 => ⟨S524288, .i32⟩
  | 62 => ⟨S524288, .i1⟩
  | 63 => ⟨S_, .i32⟩
  | 64 => ⟨S524288, .i32⟩
  | 65 => ⟨S524288, .i1⟩
  | 66 => ⟨S_, .i32⟩
  | 67 => ⟨S_, .i1⟩
  | 68 => ⟨S524288, .i1⟩
  | 69 => ⟨S524288, .i1⟩
  | 70 => ⟨S524288, .i1⟩
  | 71 => ⟨S524288, .i32⟩
  | 72 => ⟨S524288, .i32⟩
  | 73 => ⟨S524288, .i32⟩
  | 74 => ⟨S_, .i32⟩
  | 75 => ⟨S524288, .i32⟩
  | 76 => ⟨S524288, .i32⟩
  | 77 => ⟨S524288, .i32⟩
  | 78 => ⟨S_, .i32⟩
  | 79 => ⟨S524288, .i32⟩
  | 80 => ⟨S524288, .i1⟩
  | 81 => ⟨S524288, .i32⟩
  | 82 => ⟨S524288, .i32⟩
  | 83 => ⟨S_, .i32⟩
  | 84 => ⟨S524288, .i32⟩
  | 85 => ⟨S524288, .i1⟩
  | 86 => ⟨S524288, .i1⟩
  | 87 => ⟨S_, .i32⟩
  | 88 => ⟨S524288, .i32⟩
  | 89 => ⟨S524288, .i32⟩
  | 90 => ⟨S524288, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S524288, .i32⟩
  | 98 => ⟨S524288, .i32⟩
  | 99 => ⟨S_, .i32⟩
  | 100 => ⟨S524288, .i32⟩
  | 101 => ⟨S524288, .i1⟩
  | 102 => ⟨S_, .i32⟩
  | 103 => ⟨S524288, .i32⟩
  | 104 => ⟨S524288, .i1⟩
  | 105 => ⟨S_, .i32⟩
  | 106 => ⟨S_, .i1⟩
  | 107 => ⟨S524288, .i1⟩
  | 108 => ⟨S524288, .i1⟩
  | 109 => ⟨S524288, .i1⟩
  | 110 => ⟨S524288, .i32⟩
  | 111 => ⟨S524288, .i32⟩
  | 112 => ⟨S524288, .i32⟩
  | 113 => ⟨S524288, .i32⟩
  | 114 => ⟨S8192x8192, .i32⟩
  | 115 => ⟨S_, .i32⟩
  | 116 => ⟨S_, .i32⟩
  | 117 => ⟨S524288, .i32⟩
  | 118 => ⟨S524288, .i1⟩
  | 119 => ⟨S_, .i32⟩
  | 120 => ⟨S_, .i32⟩
  | 121 => ⟨S524288, .i32⟩
  | 122 => ⟨S524288, .i32⟩
  | 123 => ⟨S_, .i32⟩
  | 124 => ⟨S_, .i32⟩
  | 125 => ⟨S524288, .i32⟩
  | 126 => ⟨S524288, .i32⟩
  | 127 => ⟨S1x524288, .i32⟩
  | _ => ⟨S8192x3, .f32⟩

abbrev hbmTy0_1 (i : Nat) : BufTy := match i % 128 with
  | 0 => ⟨S1x524288, .i32⟩
  | 1 => ⟨S2x524288, .i32⟩
  | _ => ⟨S8192x3, .f32⟩

abbrev hbmTy (i : Nat) : BufTy := match i / 128 with
  | 0 => hbmTy0_0 i
  | 1 => hbmTy0_1 i
  | _ => ⟨S8192x3, .f32⟩

abbrev bufTy : (tb : Table) → Fin (tcTables nBuf tb) → BufTy
  | .hbm, ⟨i, _⟩ => hbmTy i
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .i32⟩
  | .local _ .vmem, ⟨9, _⟩ => ⟨S1024x1024, .i32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_call0_c : Ref sig .tc := ⟨.hbm, 12, rfl⟩
abbrev main_call0_call0_v0 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_call2_call0_c : Ref sig .tc := ⟨.hbm, 32, rfl⟩
abbrev main_call2_call0_v0 : Ref sig .tc := ⟨.hbm, 33, rfl⟩
abbrev main_v18 : Ref sig .tc := ⟨.hbm, 34, rfl⟩
abbrev main_c_5 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_v6 : Ref sig .tc := ⟨.hbm, 42, rfl⟩
abbrev main_call3_v7 : Ref sig .tc := ⟨.hbm, 43, rfl⟩
abbrev main_call3_c : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_c_0 : Ref sig .tc := ⟨.hbm, 48, rfl⟩
abbrev main_call3_v11 : Ref sig .tc := ⟨.hbm, 49, rfl⟩
abbrev main_call3_v12 : Ref sig .tc := ⟨.hbm, 50, rfl⟩
abbrev main_v19 : Ref sig .tc := ⟨.hbm, 51, rfl⟩
abbrev main_c_6 : Ref sig .tc := ⟨.hbm, 52, rfl⟩
abbrev main_call4_v0 : Ref sig .tc := ⟨.hbm, 53, rfl⟩
abbrev main_call4_c : Ref sig .tc := ⟨.hbm, 54, rfl⟩
abbrev main_call4_v1 : Ref sig .tc := ⟨.hbm, 55, rfl⟩
abbrev main_call4_c_0 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_call4_c_1 : Ref sig .tc := ⟨.hbm, 60, rfl⟩
abbrev main_call4_v5 : Ref sig .tc := ⟨.hbm, 61, rfl⟩
abbrev main_call4_v6 : Ref sig .tc := ⟨.hbm, 62, rfl⟩
abbrev main_call4_c_2 : Ref sig .tc := ⟨.hbm, 63, rfl⟩
abbrev main_call4_v7 : Ref sig .tc := ⟨.hbm, 64, rfl⟩
abbrev main_call4_v8 : Ref sig .tc := ⟨.hbm, 65, rfl⟩
abbrev main_call4_c_3 : Ref sig .tc := ⟨.hbm, 66, rfl⟩
abbrev main_call4_v9 : Ref sig .tc := ⟨.hbm, 67, rfl⟩
abbrev main_call4_v10 : Ref sig .tc := ⟨.hbm, 68, rfl⟩
abbrev main_call4_v11 : Ref sig .tc := ⟨.hbm, 69, rfl⟩
abbrev main_call4_v12 : Ref sig .tc := ⟨.hbm, 70, rfl⟩
abbrev main_call4_v13 : Ref sig .tc := ⟨.hbm, 71, rfl⟩
abbrev main_call4_v14 : Ref sig .tc := ⟨.hbm, 72, rfl⟩
abbrev main_v20 : Ref sig .tc := ⟨.hbm, 73, rfl⟩
abbrev main_c_7 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_call5_v5 : Ref sig .tc := ⟨.hbm, 80, rfl⟩
abbrev main_call5_v6 : Ref sig .tc := ⟨.hbm, 81, rfl⟩
abbrev main_call5_v7 : Ref sig .tc := ⟨.hbm, 82, rfl⟩
abbrev main_call5_c : Ref sig .tc := ⟨.hbm, 83, rfl⟩
abbrev main_call5_v8 : Ref sig .tc := ⟨.hbm, 84, rfl⟩
abbrev main_call5_v9 : Ref sig .tc := ⟨.hbm, 85, rfl⟩
abbrev main_call5_v10 : Ref sig .tc := ⟨.hbm, 86, rfl⟩
abbrev main_call5_c_0 : Ref sig .tc := ⟨.hbm, 87, rfl⟩
abbrev main_call5_v11 : Ref sig .tc := ⟨.hbm, 88, rfl⟩
abbrev main_call5_v12 : Ref sig .tc := ⟨.hbm, 89, rfl⟩
abbrev main_v21 : Ref sig .tc := ⟨.hbm, 90, rfl⟩
abbrev main_c_8 : Ref sig .tc := ⟨.hbm, 91, rfl⟩
abbrev main_call6_v0 : Ref sig .tc := ⟨.hbm, 92, rfl⟩
abbrev main_call6_c : Ref sig .tc := ⟨.hbm, 93, rfl⟩
abbrev main_call6_v1 : Ref sig .tc := ⟨.hbm, 94, rfl⟩
abbrev main_call6_c_0 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_c_1 : Ref sig .tc := ⟨.hbm, 99, rfl⟩
abbrev main_call6_v5 : Ref sig .tc := ⟨.hbm, 100, rfl⟩
abbrev main_call6_v6 : Ref sig .tc := ⟨.hbm, 101, rfl⟩
abbrev main_call6_c_2 : Ref sig .tc := ⟨.hbm, 102, rfl⟩
abbrev main_call6_v7 : Ref sig .tc := ⟨.hbm, 103, rfl⟩
abbrev main_call6_v8 : Ref sig .tc := ⟨.hbm, 104, rfl⟩
abbrev main_call6_c_3 : Ref sig .tc := ⟨.hbm, 105, rfl⟩
abbrev main_call6_v9 : Ref sig .tc := ⟨.hbm, 106, rfl⟩
abbrev main_call6_v10 : Ref sig .tc := ⟨.hbm, 107, rfl⟩
abbrev main_call6_v11 : Ref sig .tc := ⟨.hbm, 108, rfl⟩
abbrev main_call6_v12 : Ref sig .tc := ⟨.hbm, 109, rfl⟩
abbrev main_call6_v13 : Ref sig .tc := ⟨.hbm, 110, rfl⟩
abbrev main_call6_v14 : Ref sig .tc := ⟨.hbm, 111, rfl⟩
abbrev main_v22 : Ref sig .tc := ⟨.hbm, 112, rfl⟩
abbrev main_v23 : Ref sig .tc := ⟨.hbm, 113, rfl⟩
abbrev main_v24 : Ref sig .tc := ⟨.hbm, 114, rfl⟩
abbrev main_c_9 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_c_10 : Ref sig .tc := ⟨.hbm, 119, rfl⟩
abbrev main_call7_v0 : Ref sig .tc := ⟨.hbm, 120, rfl⟩
abbrev main_call7_v1 : Ref sig .tc := ⟨.hbm, 121, rfl⟩
abbrev main_v28 : Ref sig .tc := ⟨.hbm, 122, rfl⟩
abbrev main_c_11 : Ref sig .tc := ⟨.hbm, 123, rfl⟩
abbrev main_call8_v0 : Ref sig .tc := ⟨.hbm, 124, rfl⟩
abbrev main_call8_v1 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x3_S8192_d1 : S8192x3.ReducesTo [1] S8192
  h_S_ : 0 < S_.numel
  shapeCasts_S8192_S8192x1 : S8192.ShapeCasts S8192x1
  shapeCasts_S8192_S1x8192 : S8192.ShapeCasts S1x8192
  inb_S1024x3_S1024x3_0_0 : ∀ a, (![0, 0] : Fin 2 → Nat) a + S1024x3.size a ≤ S1024x3.size a
  h_S1024x3 : 0 < S1024x3.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  natLt_1_32 : 1 < 32
  inb_S1024x1024_S1024x1024_0_0 : ∀ a, (![0, 0] : Fin 2 → Nat) a + S1024x1024.size a ≤ S1024x1024.size a
  h_S1024x1024 : 0 < S1024x1024.numel
  bcast_S_S8192x8192 : S_.BroadcastsInDim S8192x8192 (![] : Fin 0 → Fin S8192x8192.rank)
  shapeCasts_S8192x8192_S67108864 : S8192x8192.ShapeCasts S67108864
  bcast_S_S_ : S_.BroadcastsInDim S_ (![] : Fin 0 → Fin S_.rank)
  reduceWindows_S67108864_S67108864_w67108864s1p67108863_0 : S67108864.ReduceWindows (![67108864] : Fin 1 → Nat) ![1] ![67108863] ![0] S67108864
  bcast_S_S524288 : S_.BroadcastsInDim S524288 (![] : Fin 0 → Fin S524288.rank)
  bcast_S_S67108864 : S_.BroadcastsInDim S67108864 (![] : Fin 0 → Fin S67108864.rank)
  bcast_S67108864_S67108864x1_0 : S67108864.BroadcastsInDim S67108864x1 (![0] : Fin 1 → Fin S67108864x1.rank)
  reduceWindows_S524288_S524288_w524288s1p524287_0 : S524288.ReduceWindows (![524288] : Fin 1 → Nat) ![1] ![524287] ![0] S524288
  reducesTo_S8192x8192_S_d0_1 : S8192x8192.ReducesTo [0, 1] S_
  bcast_S524288_S1x524288_1 : S524288.BroadcastsInDim S1x524288 (![1] : Fin 1 → Fin S1x524288.rank)
  concatenates_S1x524288_S1x524288_S2x524288_d0 : Shape.Concatenates [S1x524288, S1x524288] S2x524288 0
  dot_S1024x3_S1024x3_S1024x1024_1_1_0_0_n_n_wf : DotDims.WF S1024x3 S1024x3 S1024x1024 [1] [1] [0] [0] [] []
  scatter_S524288_S67108864x1_S67108864_n_0_0_1_wf : ScatterDims.WF S524288 S67108864x1 S67108864 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S8192x3.size a
  hwx0_1 : ∀ i : grid0.Coords, EltTy.bits .f32 = 32 ∨ (Rect.block (s := S8192x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .i32 = 32 ∨ (Rect.block (s := S8192x8192) S1024x1024.size (cc0_transform_4 i) (hinb0_4 i)).WholeWords (EltTy.packing .i32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf
def scatter_S524288_S67108864x1_S67108864_n_0_0_1 : ScatterDims S524288 S67108864x1 S67108864 where
  updateWindowDims := []
  insertedWindowDims := [0]
  scatterDimsToOperandDims := [0]
  indexVectorDim := 1
  wf := scatter_S524288_S67108864x1_S67108864_n_0_0_1_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩
abbrev S67108864 : Shape := ⟨1, ![67108864]⟩
abbrev S524288 : Shape := ⟨1, ![524288]⟩
abbrev S67108864x1 : Shape := ⟨2, ![67108864, 1]⟩
abbrev S1x524288 : Shape := ⟨2, ![1, 524288]⟩
abbrev S2x524288 : Shape := ⟨2, ![2, 524288]⟩

abbrev nBuf : Space → Nat
  | .hbm => 153
  | .vmem => 0
  | .smem => 0
  | _ => 0

abbrev hbmTy0_0 (i : Nat) : BufTy := match i % 128 with
  | 0 => ⟨S8192x3, .f32⟩
  | 1 => ⟨S8192x3, .f32⟩
  | 2 => ⟨S_, .f32⟩
  | 3 => ⟨S8192, .f32⟩
  | 4 => ⟨S8192x1, .f32⟩
  | 5 => ⟨S1x8192, .f32⟩
  | 6 => ⟨S8192x8192, .f32⟩
  | 7 => ⟨S8192x8192, .f32⟩
  | 8 => ⟨S8192x8192, .f32⟩
  | 9 => ⟨S3x8192, .f32⟩
  | 10 => ⟨S8192x8192, .f32⟩
  | 11 => ⟨S_, .f32⟩
  | 12 => ⟨S8192x8192, .f32⟩
  | 13 => ⟨S8192x8192, .f32⟩
  | 14 => ⟨S8192x8192, .f32⟩
  | 15 => ⟨S_, .f32⟩
  | 16 => ⟨S8192x8192, .f32⟩
  | 17 => ⟨S8192x8192, .f32⟩
  | 18 => ⟨S8192x8192, .f32⟩
  | 19 => ⟨S8192x8192, .i32⟩
  | 20 => ⟨S8192x8192, .i32⟩
  | 21 => ⟨S_, .i32⟩
  | 22 => ⟨S8192x8192, .i32⟩
  | 23 => ⟨S8192x8192, .i32⟩
  | 24 => ⟨S8192x8192, .i1⟩
  | 25 => ⟨S8192x8192, .f32⟩
  | 26 => ⟨S_, .f32⟩
  | 27 => ⟨S8192x8192, .f32⟩
  | 28 => ⟨S8192x8192, .f32⟩
  | 29 => ⟨S8192x8192, .f32⟩
  | 30 => ⟨S_, .f32⟩
  | 31 => ⟨S8192x8192, .f32⟩
  | 32 => ⟨S8192x8192, .i1⟩
  | 33 => ⟨S67108864, .i1⟩
  | 34 => ⟨S67108864, .i32⟩
  | 35 => ⟨S_, .i32⟩
  | 36 => ⟨S_, .i32⟩
  | 37 => ⟨S67108864, .i32⟩
  | 38 => ⟨S_, .i32⟩
  | 39 => ⟨S524288, .i32⟩
  | 40 => ⟨S_, .i32⟩
  | 41 => ⟨S_, .i32⟩
  | 42 => ⟨S67108864, .i32⟩
  | 43 => ⟨S67108864, .i32⟩
  | 44 => ⟨S_, .i32⟩
  | 45 => ⟨S67108864, .i32⟩
  | 46 => ⟨S67108864, .i1⟩
  | 47 => ⟨S_, .i32⟩
  | 48 => ⟨S67108864, .i32⟩
  | 49 => ⟨S67108864, .i32⟩
  | 50 => ⟨S67108864, .i32⟩
  | 51 => ⟨S67108864x1, .i32⟩
  | 52 => ⟨S_, .i32⟩
  | 53 => ⟨S67108864, .i32⟩
  | 54 => ⟨S524288, .i32⟩
  | 55 => ⟨S_, .i32⟩
  | 56 => ⟨S_, .i32⟩
  | 57 => ⟨S524288, .i32⟩
  | 58 => ⟨S_, .i32⟩
  | 59 => ⟨S524288, .i32⟩
  | 60 => ⟨S524288, .i32⟩
  | 61 => ⟨S524288, .i32⟩
  | 62 => ⟨S_, .i32⟩
  | 63 => ⟨S524288, .i32⟩
  | 64 => ⟨S524288, .i1⟩
  | 65 => ⟨S524288, .i32⟩
  | 66 => ⟨S524288, .i32⟩
  | 67 => ⟨S_, .i32⟩
  | 68 => ⟨S524288, .i32⟩
  | 69 => ⟨S524288, .i1⟩
  | 70 => ⟨S524288, .i1⟩
  | 71 => ⟨S_, .i32⟩
  | 72 => ⟨S524288, .i32⟩
  | 73 => ⟨S524288, .i32⟩
  | 74 => ⟨S524288, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S524288, .i32⟩
  | 82 => ⟨S524288, .i32⟩
  | 83 => ⟨S_, .i32⟩
  | 84 => ⟨S524288, .i32⟩
  | 85 => ⟨S524288, .i1⟩
  | 86 => ⟨S_, .i32⟩
  | 87 => ⟨S524288, .i32⟩
  | 88 => ⟨S524288, .i1⟩
  | 89 => ⟨S_, .i32⟩
  | 90 => ⟨S_, .i1⟩
  | 91 => ⟨S524288, .i1⟩
  | 92 => ⟨S524288, .i1⟩
  | 93 => ⟨S524288, .i1⟩
  | 94 => ⟨S524288, .i32⟩
  | 95 => ⟨S524288, .i32⟩
  | 96 => ⟨S524288, .i32⟩
  | 97 => ⟨S_, .i32⟩
  | 98 => ⟨S524288, .i32⟩
  | 99 => ⟨S524288, .i32⟩
  | 100 => ⟨S524288, .i32⟩
  | 101 => ⟨S_, .i32⟩
  | 102 => ⟨S524288, .i32⟩
  | 103 => ⟨S524288, .i1⟩
  | 104 => ⟨S524288, .i32⟩
  | 105 => ⟨S524288, .i32⟩
  | 106 => ⟨S_, .i32⟩
  | 107 => ⟨S524288, .i32⟩
  | 108 => ⟨S524288, .i1⟩
  | 109 => ⟨S524288, .i1⟩
  | 110 => ⟨S_, .i32⟩
  | 111 => ⟨S524288, .i32⟩
  | 112 => ⟨S524288, .i32⟩
  | 113 => ⟨S524288, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S524288, .i32⟩
  | 121 => ⟨S524288, .i32⟩
  | 122 => ⟨S_, .i32⟩
  | 123 => ⟨S524288, .i32⟩
  | 124 => ⟨S524288, .i1⟩
  | 125 => ⟨S_, .i32⟩
  | 126 => ⟨S524288, .i32⟩
  | 127 => ⟨S524288, .i1⟩
  | _ => ⟨S8192x3, .f32⟩

abbrev hbmTy0_1 (i : Nat) : BufTy := match i % 128 with
  | 0 => ⟨S_, .i32⟩
  | 1 => ⟨S_, .i1⟩
  | 2 => ⟨S524288, .i1⟩
  | 3 => ⟨S524288, .i1⟩
  | 4 => ⟨S524288, .i1⟩
  | 5 => ⟨S524288, .i32⟩
  | 6 => ⟨S524288, .i32⟩
  | 7 => ⟨S524288, .i32⟩
  | 8 => ⟨S524288, .i32⟩
  | 9 => ⟨S8192x8192, .i32⟩
  | 10 => ⟨S_, .i32⟩
  | 11 => ⟨S_, .i32⟩
  | 12 => ⟨S524288, .i32⟩
  | 13 => ⟨S524288, .i1⟩
  | 14 => ⟨S_, .i32⟩
  | 15 => ⟨S_, .i32⟩
  | 16 => ⟨S524288, .i32⟩
  | 17 => ⟨S524288, .i32⟩
  | 18 => ⟨S_, .i32⟩
  | 19 => ⟨S_, .i32⟩
  | 20 => ⟨S524288, .i32⟩
  | 21 => ⟨S524288, .i32⟩
  | 22 => ⟨S1x524288, .i32⟩
  | 23 => ⟨S1x524288, .i32⟩
  | 24 => ⟨S2x524288, .i32⟩
  | _ => ⟨S8192x3, .f32⟩

abbrev hbmTy (i : Nat) : BufTy := match i / 128 with
  | 0 => hbmTy0_0 i
  | 1 => hbmTy0_1 i
  | _ => ⟨S8192x3, .f32⟩

abbrev bufTy : (tb : Table) → Fin (tcTables nBuf tb) → BufTy
  | .hbm, ⟨i, _⟩ => hbmTy i
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_call0_c : Ref sig .tc := ⟨.hbm, 35, rfl⟩
abbrev main_call0_call0_v0 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_call2_call0_c : Ref sig .tc := ⟨.hbm, 55, rfl⟩
abbrev main_call2_call0_v0 : Ref sig .tc := ⟨.hbm, 56, rfl⟩
abbrev main_v37 : Ref sig .tc := ⟨.hbm, 57, rfl⟩
abbrev main_c_9 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_c : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_call3_c_0 : Ref sig .tc := ⟨.hbm, 71, rfl⟩
abbrev main_call3_v11 : Ref sig .tc := ⟨.hbm, 72, rfl⟩
abbrev main_call3_v12 : Ref sig .tc := ⟨.hbm, 73, rfl⟩
abbrev main_v38 : Ref sig .tc := ⟨.hbm, 74, rfl⟩
abbrev main_c_10 : Ref sig .tc := ⟨.hbm, 75, rfl⟩
abbrev main_call4_v0 : Ref sig .tc := ⟨.hbm, 76, rfl⟩
abbrev main_call4_c : Ref sig .tc := ⟨.hbm, 77, rfl⟩
abbrev main_call4_v1 : Ref sig .tc := ⟨.hbm, 78, rfl⟩
abbrev main_call4_c_0 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_c_1 : Ref sig .tc := ⟨.hbm, 83, rfl⟩
abbrev main_call4_v5 : Ref sig .tc := ⟨.hbm, 84, rfl⟩
abbrev main_call4_v6 : Ref sig .tc := ⟨.hbm, 85, rfl⟩
abbrev main_call4_c_2 : Ref sig .tc := ⟨.hbm, 86, rfl⟩
abbrev main_call4_v7 : Ref sig .tc := ⟨.hbm, 87, rfl⟩
abbrev main_call4_v8 : Ref sig .tc := ⟨.hbm, 88, rfl⟩
abbrev main_call4_c_3 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_v12 : Ref sig .tc := ⟨.hbm, 93, rfl⟩
abbrev main_call4_v13 : Ref sig .tc := ⟨.hbm, 94, rfl⟩
abbrev main_call4_v14 : Ref sig .tc := ⟨.hbm, 95, rfl⟩
abbrev main_v39 : Ref sig .tc := ⟨.hbm, 96, rfl⟩
abbrev main_c_11 : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_call5_v5 : Ref sig .tc := ⟨.hbm, 103, rfl⟩
abbrev main_call5_v6 : Ref sig .tc := ⟨.hbm, 104, rfl⟩
abbrev main_call5_v7 : Ref sig .tc := ⟨.hbm, 105, rfl⟩
abbrev main_call5_c : Ref sig .tc := ⟨.hbm, 106, rfl⟩
abbrev main_call5_v8 : Ref sig .tc := ⟨.hbm, 107, rfl⟩
abbrev main_call5_v9 : Ref sig .tc := ⟨.hbm, 108, rfl⟩
abbrev main_call5_v10 : Ref sig .tc := ⟨.hbm, 109, rfl⟩
abbrev main_call5_c_0 : Ref sig .tc := ⟨.hbm, 110, rfl⟩
abbrev main_call5_v11 : Ref sig .tc := ⟨.hbm, 111, rfl⟩
abbrev main_call5_v12 : Ref sig .tc := ⟨.hbm, 112, rfl⟩
abbrev main_v40 : Ref sig .tc := ⟨.hbm, 113, rfl⟩
abbrev main_c_12 : Ref sig .tc := ⟨.hbm, 114, rfl⟩
abbrev main_call6_v0 : Ref sig .tc := ⟨.hbm, 115, rfl⟩
abbrev main_call6_c : Ref sig .tc := ⟨.hbm, 116, rfl⟩
abbrev main_call6_v1 : Ref sig .tc := ⟨.hbm, 117, rfl⟩
abbrev main_call6_c_0 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_call6_c_1 : Ref sig .tc := ⟨.hbm, 122, rfl⟩
abbrev main_call6_v5 : Ref sig .tc := ⟨.hbm, 123, rfl⟩
abbrev main_call6_v6 : Ref sig .tc := ⟨.hbm, 124, rfl⟩
abbrev main_call6_c_2 : Ref sig .tc := ⟨.hbm, 125, rfl⟩
abbrev main_call6_v7 : Ref sig .tc := ⟨.hbm, 126, rfl⟩
abbrev main_call6_v8 : Ref sig .tc := ⟨.hbm, 127, rfl⟩
abbrev main_call6_c_3 : Ref sig .tc := ⟨.hbm, 128, rfl⟩
abbrev main_call6_v9 : Ref sig .tc := ⟨.hbm, 129, rfl⟩
abbrev main_call6_v10 : Ref sig .tc := ⟨.hbm, 130, rfl⟩
abbrev main_call6_v11 : Ref sig .tc := ⟨.hbm, 131, rfl⟩
abbrev main_call6_v12 : Ref sig .tc := ⟨.hbm, 132, rfl⟩
abbrev main_call6_v13 : Ref sig .tc := ⟨.hbm, 133, rfl⟩
abbrev main_call6_v14 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_c_13 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_c_14 : Ref sig .tc := ⟨.hbm, 142, rfl⟩
abbrev main_call7_v0 : Ref sig .tc := ⟨.hbm, 143, rfl⟩
abbrev main_call7_v1 : Ref sig .tc := ⟨.hbm, 144, rfl⟩
abbrev main_v47 : Ref sig .tc := ⟨.hbm, 145, rfl⟩
abbrev main_c_15 : Ref sig .tc := ⟨.hbm, 146, rfl⟩
abbrev main_call8_v0 : Ref sig .tc := ⟨.hbm, 147, rfl⟩
abbrev main_call8_v1 : Ref sig .tc := ⟨.hbm, 148, rfl⟩
abbrev main_v48 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  shapeCasts_S8192x8192_S67108864 : S8192x8192.ShapeCasts S67108864
  natLt_1_32 : 1 < 32
  bcast_S_S_ : S_.BroadcastsInDim S_ (![] : Fin 0 → Fin S_.rank)
  reduceWindows_S67108864_S67108864_w67108864s1p67108863_0 : S67108864.ReduceWindows (![67108864] : Fin 1 → Nat) ![1] ![67108863] ![0] S67108864
  bcast_S_S524288 : S_.BroadcastsInDim S524288 (![] : Fin 0 → Fin S524288.rank)
  bcast_S_S67108864 : S_.BroadcastsInDim S67108864 (![] : Fin 0 → Fin S67108864.rank)
  bcast_S67108864_S67108864x1_0 : S67108864.BroadcastsInDim S67108864x1 (![0] : Fin 1 → Fin S67108864x1.rank)
  reduceWindows_S524288_S524288_w524288s1p524287_0 : S524288.ReduceWindows (![524288] : Fin 1 → Nat) ![1] ![524287] ![0] S524288
  reducesTo_S8192x8192_S_d0_1 : S8192x8192.ReducesTo [0, 1] S_
  bcast_S524288_S1x524288_1 : S524288.BroadcastsInDim S1x524288 (![1] : Fin 1 → Fin S1x524288.rank)
  concatenates_S1x524288_S1x524288_S2x524288_d0 : Shape.Concatenates [S1x524288, S1x524288] S2x524288 0
  dot_S8192x3_S3x8192_S8192x8192_1_0_0_1_n_n_wf : DotDims.WF S8192x3 S3x8192 S8192x8192 [1] [0] [0] [1] [] []
  scatter_S524288_S67108864x1_S67108864_n_0_0_1_wf : ScatterDims.WF S524288 S67108864x1 S67108864 [] [0] [0] 1

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf
def scatter_S524288_S67108864x1_S67108864_n_0_0_1 : ScatterDims S524288 S67108864x1 S67108864 where
  updateWindowDims := []
  insertedWindowDims := [0]
  scatterDimsToOperandDims := [0]
  indexVectorDim := 1
  wf := scatter_S524288_S67108864x1_S67108864_n_0_0_1_wf

class Facts : Prop extends Facts₀ where

variable [Facts]
-- ==== Proof.KDatB.lean ====
/-
  The proof data of the kernel's one pipelined region, at a parameter `V`: the buffer contents the region is
  entered from.  The grid is 8 x 8; at point (i0, i1) the body is handed rows i0*1024 … of the points (window 0),
  rows i1*1024 … of the points (window 1: the same array, read a second time), rows i0*1024 … of the column of squared
  lengths (window 2), columns i1*1024 … of the row of squared lengths (window 3), and leaves in the output window's
  buffer (window 4, block (i0, i1) of the 8192 x 8192 result) its one stored value, a function of the four blocks and of
  the point.  The two windows on the points' array each hold half of it.
-/
import proofs.«166916_j89352499626116_1_alg».proof.Proof.Gen.Kernel.Launch
import proofs.«166916_j89352499626116_1_alg».proof.Proof.Gen.Kernel.Skeleton
import proofs.«166916_j89352499626116_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each staging buffer, as the body's loads and its store address it. -/
abbrev r0_0 : Rect S1024x3 := Rect.unit (s := S1024x3) ![0, 0] S1024x3.size inb_S1024x3_S1024x3_0_0
abbrev r0_2 : Rect S1024x1 := Rect.unit (s := S1024x1) ![0, 0] S1024x1.size inb_S1024x1_S1024x1_0_0
abbrev r0_3 : Rect S1x1024 := Rect.unit (s := S1x1024) ![0, 0] S1x1024.size inb_S1x1024_S1x1024_0_0
abbrev r0_4 : Rect S1024x1024 := Rect.unit (s := S1024x1024) ![0, 0] S1024x1024.size inb_S1024x1024_S1024x1024_0_0

/-- What the body leaves in the output window's buffer at grid coordinates `i`, from the four input blocks: its
    one store, of the whole buffer. -/
def out0_4 (i : grid0.Coords) (x0 : Vec F S1024x3 .f32) (x1 : Vec F S1024x3 .f32) (x2 : Vec F S1024x1 .f32) (x3 : Vec F S1x1024 .f32) :
    Vec F S1024x1024 .i32 :=
  View.canon [⟨r0_4, k0_pay1 i (View.ld x0 r0_0) (View.ld x1 r0_0) (View.ld x2 r0_2) (View.ld x3 r0_3)⟩]

/-- The proof data on core `c`: the arrays as the region finds them; after the body at point `t` each input's buffer
    at its block and the output's at `out0_4` of the input blocks; the invariant the scoped rest and the generator
    register, untouched; nothing owed; the points' array held in two halves, one per window that reads it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (grid0.coords t) (iblk0 V c 0 t) (iblk0 V c 1 t) (iblk0 V c 2 t) (iblk0 V c 3 t) := by dsimp only [dat0]

end Cert.Kernel.KF

end
-- ==== Proof.KBodyB.lean ====
/-
  The kernel body at a grid point: handed its four input blocks and the output window's buffer at anything, it leaves
  the inputs as they were and the output at its one stored value; hence the pipeline library's body obligation at
  every point.
-/
import proofs.«166916_j89352499626116_1_alg».proof.Proof.KDatB

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- The body's one store covers the output window's buffer. -/
theorem cover0_4 (p0 : Vec F S1024x1024 .i32) (y : S1024x1024.Idx) :
    ∃ pc ∈ ([⟨r0_4, p0⟩] : List (View.Piece (Elt F) S1024x1024 .i32)), y ∈ pc.1.set :=
  View.cover_of_tiled [⟨r0_4, p0⟩] S1024x1024.size (by rfl) y

set_option maxHeartbeats 1000000 in
/-- The kernel body on whole staging memrefs, the inputs' at contents `x0 … x3` and the output's at anything, runs to
    the continuation holding the inputs' as they were and the output's at `out0_4` of the inputs. -/
theorem sound_kernel0 (c : Dev nD) (E : Set ℕ) (i : grid0.Coords)
    (arg2 : Memref sig .tc .vmem S1024x3 .f32) (harg2 : arg2.IsWhole) (arg3 : Memref sig .tc .vmem S1024x3 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .i32) (harg6 : arg6.IsWhole)
    (x0 : Vec F S1024x3 .f32) (x1 : Vec F S1024x3 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 i x0 x1 x2 x3)) -∗ K ⟨⟩))
      ⊢ wp frame (wpE (defs₀ (F := F)) Variants.none c none) E (cc0__edge_mask_kernel i arg2 harg2 arg3 harg3 arg4 harg4 arg5 harg5 arg6 harg6) K := by
  simp only [cc0__edge_mask_kernel_eq_skeleton]; unfold cc0__edge_mask_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.KF

end
-- ==== Proof.TailOpsB.lean ====
/-
  The host operations the kernel's program runs after its one kernel region, as one list: the comparison of the
  region's result with zero, then the compaction of the mask's set entries.
-/
import proofs.«166916_j89352499626116_1_alg».proof.Proof.Gen.Kernel.Launch

noncomputable section

namespace Cert.Kernel.Gen

open Idealize.ShloMosaic

variable {F : FTy → Type} [FloatOps F]

/-- Everything after the region, in program order. -/
abbrev tailOps : List (HloOp τ sig (Elt F)) :=
  List.flatten [hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18]

end Cert.Kernel.Gen

end
-- ==== Proof.KFrameB.lean ====
/-
  The kernel's program from launch to return: the host operations before the region, the pipelined region over the
  8 x 8 grid, and everything after it, with the buffer contents named at each boundary.  The points' array stands
  behind two of the region's input windows; it is handed to them in two halves and made whole again at the exit.
  Result: every weakly fair execution terminates, and each buffer that outlives the region ends at the fold of the
  boundaries' contents.
-/
import proofs.«166916_j89352499626116_1_alg».proof.Proof.KBodyB
import proofs.«166916_j89352499626116_1_alg».proof.Proof.TailOpsB

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The arrays behind the windows: four buffers, the points' array behind two windows. -/
theorem arrRefs_eq : Finset.univ.image (Pipeline.arrRef spec0) = ({main_arg0, main_v2, main_v3, main_v4} : Finset (Ref sig .tc)) := by decide

variable (V : (c : Dev nD) → (b : Ref sig .tc) → Buf (Elt F) ((c : Thread nD τ).loc b))

theorem share0 (c : Dev nD) : (dat0 V c).share 0 = fullShare.left := rfl
theorem share1 (c : Dev nD) : (dat0 V c).share 1 = fullShare.right := rfl
theorem share2 (c : Dev nD) : (dat0 V c).share 2 = fullShare := rfl
theorem share3 (c : Dev nD) : (dat0 V c).share 3 = fullShare := rfl
theorem share4 (c : Dev nD) : (dat0 V c).share 4 = fullShare := rfl

/-- The buffers behind the windows' arrays, each whole at the full share, are the pipeline's arrays at the same
    contents: the points' array split in two halves, one per window that reads it. -/
theorem arrays_of_arrBufs (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    (Pipeline.arrBufs (Ix := Unit) (Name := ℕ) (U := UR sig nD τ) (Lvl := ℕ) spec0 c V' : sProp 𝕄) ⊢ (dat0 V c).arrays G := by
  unfold Pipeline.arrBufs Dat.arrays
  rw [arrRefs_eq, bigSep_W0, bigSep_insert (by decide), bigSep_insert (by decide), bigSep_insert (by decide), bigSep_singleton,
    share0, share1, share2, share3, share4, hG 0, hG 1, hG 2, hG 3, hG 4,
    (arr_whole0 0).set_eq_univ, (arr_whole0 2).set_eq_univ, (arr_whole0 3).set_eq_univ, (arr_whole0 4).set_eq_univ]
  exact (Idealize.SL.BI.sep_mono (pointsTo_share (PosShare.mem_left_op_right fullShare)).1 (.refl _)).trans Idealize.SL.BI.sep_assoc

/-- and back: the two halves of the points' array make it whole again. -/
theorem arrBufs_of_arrays (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    (dat0 V c).arrays G ⊢ (Pipeline.arrBufs (Ix := Unit) (Name := ℕ) (U := UR sig nD τ) (Lvl := ℕ) spec0 c V' : sProp 𝕄) := by
  unfold Pipeline.arrBufs Dat.arrays
  rw [arrRefs_eq, bigSep_W0, bigSep_insert (by decide), bigSep_insert (by decide), bigSep_insert (by decide), bigSep_singleton,
    share0, share1, share2, share3, share4, hG 0, hG 1, hG 2, hG 3, hG 4,
    (arr_whole0 0).set_eq_univ, (arr_whole0 2).set_eq_univ, (arr_whole0 3).set_eq_univ, (arr_whole0 4).set_eq_univ]
  exact Idealize.SL.BI.sep_assoc'.trans (Idealize.SL.BI.sep_mono (pointsTo_share (PosShare.mem_left_op_right fullShare)).2 (.refl _))

variable (m : (ℓ : Loc nD τ sig) → Buf (Elt F) ℓ) (ρ : Dev nD → PrngReg)

/-! ## The buffer contents at each boundary of the program: a fold through it -/

/-- Core `c`'s buffers at launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the result array at what the write-backs leave, every other buffer as entered (the
    input arrays are never written). -/
def W2 (c : Dev nD) : Valuation τ sig (Elt F) := by
  classical exact Function.update (W1 m ρ c) (Proc.devRef .tc main_v4) ((dat0 (V1 m ρ) c).arrAt 4 cfg0.N)
theorem W2_out (c : Dev nD) : W2 m ρ c (Proc.devRef .tc main_v4) = (dat0 (V1 m ρ) c).arrAt 4 cfg0.N := by
  unfold W2; exact Function.update_self ..
theorem W2_of_ne (c : Dev nD) (b : Ref sig .tc) (hb : b ≠ main_v4) :
    W2 m ρ c (Proc.devRef .tc b) = W1 m ρ c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m ρ c b
/-- After everything that follows the region (the return). -/
abbrev W3 : Dev nD → Valuation τ sig (Elt F) := fun c => StableHlo.after tailOps (W2 m ρ c)

/-- At the exit every window's array holds what the pipeline leaves: an input's array is never written, the
    result's is the fold of the write-backs. -/
theorem arrAt_exit (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq0 (V1 m ρ) c 0)).trans (W2_of_ne m ρ c main_arg0 (by decide)).symm
  | ⟨1, _⟩ => exact (((dat0 (V1 m ρ) c).arrAt_in 1 rfl _).trans (A_eq0 (V1 m ρ) c 1)).trans (W2_of_ne m ρ c main_arg0 (by decide)).symm
  | ⟨2, _⟩ => exact (((dat0 (V1 m ρ) c).arrAt_in 2 rfl _).trans (A_eq0 (V1 m ρ) c 2)).trans (W2_of_ne m ρ c main_v2 (by decide)).symm
  | ⟨3, _⟩ => exact (((dat0 (V1 m ρ) c).arrAt_in 3 rfl _).trans (A_eq0 (V1 m ρ) c 3)).trans (W2_of_ne m ρ c main_v3 (by decide)).symm
  | ⟨4, _⟩ => exact (W2_out m ρ c).symm

/-- Off the windows' arrays the exit contents are the entry contents. -/
theorem rest_exit (c : Dev nD) (b : Ref sig .tc) (hb : b ∉ Finset.univ.image (Pipeline.arrRef spec0)) : V2 m ρ c b = V1 m ρ c b :=
  W2_of_ne m ρ c b fun e => hb (e ▸ Finset.mem_image.mpr ⟨4, Finset.mem_univ _, rfl⟩)

/-! ## The thread state -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem tailOps_sub : (tailOps : List (HloOp τ sig (Elt F))).Forall fun op => op.bufs ⊆ StableHlo.tcRefs τ sig :=
  List.forall_iff_forall_mem.mpr fun op hop => by
    obtain ⟨l, hl, hop⟩ := List.mem_flatten.mp hop
    simp only [List.mem_cons, List.mem_nil_iff, or_false] at hl
    rcases hl with rfl | rfl | rfl | rfl | rfl | rfl | rfl | rfl | rfl | rfl | rfl | rfl | rfl | rfl | rfl | rfl | rfl | rfl | rfl
    · exact List.forall_iff_forall_mem.mp hostOps1_sub op hop
    · exact List.forall_iff_forall_mem.mp hostOps1_1_sub op hop
    · exact List.forall_iff_forall_mem.mp hostOps1_2_sub op hop
    · exact List.forall_iff_forall_mem.mp hostOps1_3_sub op hop
    · exact List.forall_iff_forall_mem.mp hostOps1_4_sub op hop
    · exact List.forall_iff_forall_mem.mp hostOps1_5_sub op hop
    · exact List.forall_iff_forall_mem.mp hostOps1_6_sub op hop
    · exact List.forall_iff_forall_mem.mp hostOps1_7_sub op hop
    · exact List.forall_iff_forall_mem.mp hostOps1_8_sub op hop
    · exact List.forall_iff_forall_mem.mp hostOps1_9_sub op hop
    · exact List.forall_iff_forall_mem.mp hostOps1_10_sub op hop
    · exact List.forall_iff_forall_mem.mp hostOps1_11_sub op hop
    · exact List.forall_iff_forall_mem.mp hostOps1_12_sub op hop
    · exact List.forall_iff_forall_mem.mp hostOps1_13_sub op hop
    · exact List.forall_iff_forall_mem.mp hostOps1_14_sub op hop
    · exact List.forall_iff_forall_mem.mp hostOps1_15_sub op hop
    · exact List.forall_iff_forall_mem.mp hostOps1_16_sub op hop
    · exact List.forall_iff_forall_mem.mp hostOps1_17_sub op hop
    · exact List.forall_iff_forall_mem.mp hostOps1_18_sub op hop

theorem tailOps_fresh : (tailOps : List (HloOp τ sig (Elt F))).Forall fun op => op.fresh = ∅ := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18,
    List.flatten_cons, List.flatten_nil, List.append_nil, List.cons_append, List.nil_append, List.Forall]
  repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-- Entry: the unscoped buffers at the entry contents are the pipeline's arrays at their entry contents and the rest. -/
theorem entry_split (c : Dev nD) : (StableHlo.held (c : Thread nD τ) (Pipeline.ucRefs τ sig) (W1 m ρ c) : sProp 𝕄)
    ⊢ iprop((dat0 (V1 m ρ) c).arrays ((dat0 (V1 m ρ) c).arrAt · 0)
        ∗ Pipeline.unscopedRest (Ix := Unit) (Name := ℕ) (U := UR sig nD τ) (Lvl := ℕ) spec0 c (V1 m ρ c)) := by
  have h0 : (unscopedBufs (Ix := Unit) (Name := ℕ) (U := UR sig nD τ) (Lvl := ℕ) c (V1 m ρ c) : sProp 𝕄)
      = StableHlo.held (c : Thread nD τ) (Pipeline.ucRefs τ sig) (W1 m ρ c) := Pipeline.unscopedBufs_held c (W1 m ρ c)
  have h1 : (unscopedBufs (Ix := Unit) (Name := ℕ) (U := UR sig nD τ) (Lvl := ℕ) c (V1 m ρ c) : sProp 𝕄)
      = iprop(Pipeline.arrBufs spec0 c (V1 m ρ c) ∗ Pipeline.unscopedRest spec0 c (V1 m ρ c)) :=
    Pipeline.unscopedBufs_split₀ cfgs 0 winFacts₀0.arr_unscoped c (V1 m ρ c)
  exact (Entails.of_eq (h0.symm.trans h1)).trans
    (Idealize.SL.BI.sep_mono (arrays_of_arrBufs (V1 m ρ) c (V1 m ρ c) _ fun w => A_eq0 (V1 m ρ) c w) (.refl _))

/-- Exit: the arrays at what the pipeline leaves and the rest are the unscoped buffers at the exit contents. -/
theorem exit_join (c : Dev nD) :
    iprop((dat0 (V1 m ρ) c).arrays ((dat0 (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  have h0 : (unscopedBufs (Ix := Unit) (Name := ℕ) (U := UR sig nD τ) (Lvl := ℕ) c (V2 m ρ c) : sProp 𝕄)
      = StableHlo.held (c : Thread nD τ) (Pipeline.ucRefs τ sig) (W2 m ρ c) := Pipeline.unscopedBufs_held c (W2 m ρ c)
  have h1 : (unscopedBufs (Ix := Unit) (Name := ℕ) (U := UR sig nD τ) (Lvl := ℕ) c (V2 m ρ c) : sProp 𝕄)
      = iprop(Pipeline.arrBufs spec0 c (V2 m ρ c) ∗ Pipeline.unscopedRest spec0 c (V2 m ρ c)) :=
    Pipeline.unscopedBufs_split₀ cfgs 0 winFacts₀0.arr_unscoped c (V2 m ρ c)
  have hr : (Pipeline.unscopedRest (Ix := Unit) (Name := ℕ) (U := UR sig nD τ) (Lvl := ℕ) spec0 c (V1 m ρ c) : sProp 𝕄)
      = Pipeline.unscopedRest spec0 c (V2 m ρ c) := by
    unfold Pipeline.unscopedRest
    exact bigSep_congr fun b hb => by rw [rest_exit m ρ c b (Finset.mem_sdiff.mp hb).2]
  rw [hr]
  exact (Idealize.SL.BI.sep_mono (arrBufs_of_arrays (V1 m ρ) c (V2 m ρ c) _ (arrAt_exit m ρ c)) (.refl _)).trans
    (Entails.of_eq (h1.symm.trans h0))

set_option backward.isDefEq.respectTransparency.types false in
/-- The region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The program's three segments: the host operations before the region, the region, the host operations after it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg tailOps tailOps_sub tailOps_fresh (W2 m ρ)) ]

/-- The program IS the run of the segments. -/
theorem main_run (c : Dev nD) : main (F := F) c = Pipeline.Seg.run (segs m ρ) := (main_chain c).trans (by chain_rfl)

set_option backward.isDefEq.respectTransparency.types false in
/-- From any memory with zero counters, every weakly fair execution of the program terminates, nothing faulting, and
    every buffer that outlives the region ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The points' array is written by no host operation and by no write-back: it ends as launched. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [tailOps, hostOps1, hostOps1_1, hostOps1_2, hostOps1_3, hostOps1_4, hostOps1_5, hostOps1_6, hostOps1_7, hostOps1_8, hostOps1_9,
            hostOps1_10, hostOps1_11, hostOps1_12, hostOps1_13, hostOps1_14, hostOps1_15, hostOps1_16, hostOps1_17, hostOps1_18,
            List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The frame: the program runs to the end, nothing faulting, and its argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_arg0 m ρ c)) (run_all m ρ)

end Cert.Kernel.KF

end
-- ==== Proof.KDat.lean ====
/-
  The proof data of the kernel's one pipelined region, at a parameter `V`: the buffer contents the region is
  entered from.  The grid is 8 x 8; at point (i0, i1) the body is handed rows i0*1024 … of the points (window 0),
  rows i1*1024 … of the points (window 1: the same array, read a second time), rows i0*1024 … of the column of squared
  lengths (window 2), columns i1*1024 … of the row of squared lengths (window 3), and leaves in the output window's
  buffer (window 4, block (i0, i1) of the 8192 x 8192 result) its one stored value, a function of the four blocks and of
  the point.  The two windows on the points' array each hold half of it.
-/
import proofs.«166916_j89352499626116_1_alg».proof.Proof.Gen.KernelIdeal.Launch
import proofs.«166916_j89352499626116_1_alg».proof.Proof.Gen.KernelIdeal.Skeleton
import proofs.«166916_j89352499626116_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each staging buffer, as the body's loads and its store address it. -/
abbrev r0_0 : Rect S1024x3 := Rect.unit (s := S1024x3) ![0, 0] S1024x3.size inb_S1024x3_S1024x3_0_0
abbrev r0_2 : Rect S1024x1 := Rect.unit (s := S1024x1) ![0, 0] S1024x1.size inb_S1024x1_S1024x1_0_0
abbrev r0_3 : Rect S1x1024 := Rect.unit (s := S1x1024) ![0, 0] S1x1024.size inb_S1x1024_S1x1024_0_0
abbrev r0_4 : Rect S1024x1024 := Rect.unit (s := S1024x1024) ![0, 0] S1024x1024.size inb_S1024x1024_S1024x1024_0_0

/-- What the body leaves in the output window's buffer at grid coordinates `i`, from the four input blocks: its
    one store, of the whole buffer. -/
def out0_4 (i : grid0.Coords) (x0 : Vec F S1024x3 .f32) (x1 : Vec F S1024x3 .f32) (x2 : Vec F S1024x1 .f32) (x3 : Vec F S1x1024 .f32) :
    Vec F S1024x1024 .i32 :=
  View.canon [⟨r0_4, k0_pay1 i (View.ld x0 r0_0) (View.ld x1 r0_0) (View.ld x2 r0_2) (View.ld x3 r0_3)⟩]

/-- The proof data on core `c`: the arrays as the region finds them; after the body at point `t` each input's buffer
    at its block and the output's at `out0_4` of the input blocks; the invariant the scoped rest and the generator
    register, untouched; nothing owed; the points' array held in two halves, one per window that reads it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (grid0.coords t) (iblk0 V c 0 t) (iblk0 V c 1 t) (iblk0 V c 2 t) (iblk0 V c 3 t) := by dsimp only [dat0]

end Cert.KernelIdeal.KF

end
-- ==== Proof.KBody.lean ====
/-
  The kernel body at a grid point: handed its four input blocks and the output window's buffer at anything, it leaves
  the inputs as they were and the output at its one stored value; hence the pipeline library's body obligation at
  every point.
-/
import proofs.«166916_j89352499626116_1_alg».proof.Proof.KDat

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- The body's one store covers the output window's buffer. -/
theorem cover0_4 (p0 : Vec F S1024x1024 .i32) (y : S1024x1024.Idx) :
    ∃ pc ∈ ([⟨r0_4, p0⟩] : List (View.Piece (Elt F) S1024x1024 .i32)), y ∈ pc.1.set :=
  View.cover_of_tiled [⟨r0_4, p0⟩] S1024x1024.size (by rfl) y

set_option maxHeartbeats 1000000 in
/-- The kernel body on whole staging memrefs, the inputs' at contents `x0 … x3` and the output's at anything, runs to
    the continuation holding the inputs' as they were and the output's at `out0_4` of the inputs. -/
theorem sound_kernel0 (c : Dev nD) (E : Set ℕ) (i : grid0.Coords)
    (arg2 : Memref sig .tc .vmem S1024x3 .f32) (harg2 : arg2.IsWhole) (arg3 : Memref sig .tc .vmem S1024x3 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .i32) (harg6 : arg6.IsWhole)
    (x0 : Vec F S1024x3 .f32) (x1 : Vec F S1024x3 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 i x0 x1 x2 x3)) -∗ K ⟨⟩))
      ⊢ wp frame (wpE (defs₀ (F := F)) Variants.none c none) E (cc0__edge_mask_kernel i arg2 harg2 arg3 harg3 arg4 harg4 arg5 harg5 arg6 harg6) K := by
  simp only [cc0__edge_mask_kernel_eq_skeleton]; unfold cc0__edge_mask_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.KF

end
-- ==== Proof.TailOps.lean ====
/-
  The host operations the kernel's program runs after its one kernel region, as one list: the comparison of the
  region's result with zero, then the compaction of the mask's set entries.
-/
import proofs.«166916_j89352499626116_1_alg».proof.Proof.Gen.KernelIdeal.Launch

noncomputable section

namespace Cert.KernelIdeal.Gen

open Idealize.ShloMosaic

variable {F : FTy → Type} [FloatOps F]

/-- Everything after the region, in program order. -/
abbrev tailOps : List (HloOp τ sig (Elt F)) :=
  List.flatten [hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18]

end Cert.KernelIdeal.Gen

end
-- ==== Proof.KFrame.lean ====
/-
  The kernel's program from launch to return: the host operations before the region, the pipelined region over the
  8 x 8 grid, and everything after it, with the buffer contents named at each boundary.  The points' array stands
  behind two of the region's input windows; it is handed to them in two halves and made whole again at the exit.
  Result: every weakly fair execution terminates, and each buffer that outlives the region ends at the fold of the
  boundaries' contents.
-/
import proofs.«166916_j89352499626116_1_alg».proof.Proof.KBody
import proofs.«166916_j89352499626116_1_alg».proof.Proof.TailOps

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The arrays behind the windows: four buffers, the points' array behind two windows. -/
theorem arrRefs_eq : Finset.univ.image (Pipeline.arrRef spec0) = ({main_arg0, main_v2, main_v3, main_v4} : Finset (Ref sig .tc)) := by decide

variable (V : (c : Dev nD) → (b : Ref sig .tc) → Buf (Elt F) ((c : Thread nD τ).loc b))

theorem share0 (c : Dev nD) : (dat0 V c).share 0 = fullShare.left := rfl
theorem share1 (c : Dev nD) : (dat0 V c).share 1 = fullShare.right := rfl
theorem share2 (c : Dev nD) : (dat0 V c).share 2 = fullShare := rfl
theorem share3 (c : Dev nD) : (dat0 V c).share 3 = fullShare := rfl
theorem share4 (c : Dev nD) : (dat0 V c).share 4 = fullShare := rfl

/-- The buffers behind the windows' arrays, each whole at the full share, are the pipeline's arrays at the same
    contents: the points' array split in two halves, one per window that reads it. -/
theorem arrays_of_arrBufs (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    (Pipeline.arrBufs (Ix := Unit) (Name := ℕ) (U := UR sig nD τ) (Lvl := ℕ) spec0 c V' : sProp 𝕄) ⊢ (dat0 V c).arrays G := by
  unfold Pipeline.arrBufs Dat.arrays
  rw [arrRefs_eq, bigSep_W0, bigSep_insert (by decide), bigSep_insert (by decide), bigSep_insert (by decide), bigSep_singleton,
    share0, share1, share2, share3, share4, hG 0, hG 1, hG 2, hG 3, hG 4,
    (arr_whole0 0).set_eq_univ, (arr_whole0 2).set_eq_univ, (arr_whole0 3).set_eq_univ, (arr_whole0 4).set_eq_univ]
  exact (Idealize.SL.BI.sep_mono (pointsTo_share (PosShare.mem_left_op_right fullShare)).1 (.refl _)).trans Idealize.SL.BI.sep_assoc

/-- and back: the two halves of the points' array make it whole again. -/
theorem arrBufs_of_arrays (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    (dat0 V c).arrays G ⊢ (Pipeline.arrBufs (Ix := Unit) (Name := ℕ) (U := UR sig nD τ) (Lvl := ℕ) spec0 c V' : sProp 𝕄) := by
  unfold Pipeline.arrBufs Dat.arrays
  rw [arrRefs_eq, bigSep_W0, bigSep_insert (by decide), bigSep_insert (by decide), bigSep_insert (by decide), bigSep_singleton,
    share0, share1, share2, share3, share4, hG 0, hG 1, hG 2, hG 3, hG 4,
    (arr_whole0 0).set_eq_univ, (arr_whole0 2).set_eq_univ, (arr_whole0 3).set_eq_univ, (arr_whole0 4).set_eq_univ]
  exact Idealize.SL.BI.sep_assoc'.trans (Idealize.SL.BI.sep_mono (pointsTo_share (PosShare.mem_left_op_right fullShare)).2 (.refl _))

variable (m : (ℓ : Loc nD τ sig) → Buf (Elt F) ℓ) (ρ : Dev nD → PrngReg)

/-! ## The buffer contents at each boundary of the program: a fold through it -/

/-- Core `c`'s buffers at launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the result array at what the write-backs leave, every other buffer as entered (the
    input arrays are never written). -/
def W2 (c : Dev nD) : Valuation τ sig (Elt F) := by
  classical exact Function.update (W1 m ρ c) (Proc.devRef .tc main_v4) ((dat0 (V1 m ρ) c).arrAt 4 cfg0.N)
theorem W2_out (c : Dev nD) : W2 m ρ c (Proc.devRef .tc main_v4) = (dat0 (V1 m ρ) c).arrAt 4 cfg0.N := by
  unfold W2; exact Function.update_self ..
theorem W2_of_ne (c : Dev nD) (b : Ref sig .tc) (hb : b ≠ main_v4) :
    W2 m ρ c (Proc.devRef .tc b) = W1 m ρ c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m ρ c b
/-- After everything that follows the region (the return). -/
abbrev W3 : Dev nD → Valuation τ sig (Elt F) := fun c => StableHlo.after tailOps (W2 m ρ c)

/-- At the exit every window's array holds what the pipeline leaves: an input's array is never written, the
    result's is the fold of the write-backs. -/
theorem arrAt_exit (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq0 (V1 m ρ) c 0)).trans (W2_of_ne m ρ c main_arg0 (by decide)).symm
  | ⟨1, _⟩ => exact (((dat0 (V1 m ρ) c).arrAt_in 1 rfl _).trans (A_eq0 (V1 m ρ) c 1)).trans (W2_of_ne m ρ c main_arg0 (by decide)).symm
  | ⟨2, _⟩ => exact (((dat0 (V1 m ρ) c).arrAt_in 2 rfl _).trans (A_eq0 (V1 m ρ) c 2)).trans (W2_of_ne m ρ c main_v2 (by decide)).symm
  | ⟨3, _⟩ => exact (((dat0 (V1 m ρ) c).arrAt_in 3 rfl _).trans (A_eq0 (V1 m ρ) c 3)).trans (W2_of_ne m ρ c main_v3 (by decide)).symm
  | ⟨4, _⟩ => exact (W2_out m ρ c).symm

/-- Off the windows' arrays the exit contents are the entry contents. -/
theorem rest_exit (c : Dev nD) (b : Ref sig .tc) (hb : b ∉ Finset.univ.image (Pipeline.arrRef spec0)) : V2 m ρ c b = V1 m ρ c b :=
  W2_of_ne m ρ c b fun e => hb (e ▸ Finset.mem_image.mpr ⟨4, Finset.mem_univ _, rfl⟩)

/-! ## The thread state -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem tailOps_sub : (tailOps : List (HloOp τ sig (Elt F))).Forall fun op => op.bufs ⊆ StableHlo.tcRefs τ sig :=
  List.forall_iff_forall_mem.mpr fun op hop => by
    obtain ⟨l, hl, hop⟩ := List.mem_flatten.mp hop
    simp only [List.mem_cons, List.mem_nil_iff, or_false] at hl
    rcases hl with rfl | rfl | rfl | rfl | rfl | rfl | rfl | rfl | rfl | rfl | rfl | rfl | rfl | rfl | rfl | rfl | rfl | rfl | rfl
    · exact List.forall_iff_forall_mem.mp hostOps1_sub op hop
    · exact List.forall_iff_forall_mem.mp hostOps1_1_sub op hop
    · exact List.forall_iff_forall_mem.mp hostOps1_2_sub op hop
    · exact List.forall_iff_forall_mem.mp hostOps1_3_sub op hop
    · exact List.forall_iff_forall_mem.mp hostOps1_4_sub op hop
    · exact List.forall_iff_forall_mem.mp hostOps1_5_sub op hop
    · exact List.forall_iff_forall_mem.mp hostOps1_6_sub op hop
    · exact List.forall_iff_forall_mem.mp hostOps1_7_sub op hop
    · exact List.forall_iff_forall_mem.mp hostOps1_8_sub op hop
    · exact List.forall_iff_forall_mem.mp hostOps1_9_sub op hop
    · exact List.forall_iff_forall_mem.mp hostOps1_10_sub op hop
    · exact List.forall_iff_forall_mem.mp hostOps1_11_sub op hop
    · exact List.forall_iff_forall_mem.mp hostOps1_12_sub op hop
    · exact List.forall_iff_forall_mem.mp hostOps1_13_sub op hop
    · exact List.forall_iff_forall_mem.mp hostOps1_14_sub op hop
    · exact List.forall_iff_forall_mem.mp hostOps1_15_sub op hop
    · exact List.forall_iff_forall_mem.mp hostOps1_16_sub op hop
    · exact List.forall_iff_forall_mem.mp hostOps1_17_sub op hop
    · exact List.forall_iff_forall_mem.mp hostOps1_18_sub op hop

theorem tailOps_fresh : (tailOps : List (HloOp τ sig (Elt F))).Forall fun op => op.fresh = ∅ := by
  simp only [tailOps, hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18,
    List.flatten_cons, List.flatten_nil, List.append_nil, List.cons_append, List.nil_append, List.Forall]
  repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-- Entry: the unscoped buffers at the entry contents are the pipeline's arrays at their entry contents and the rest. -/
theorem entry_split (c : Dev nD) : (StableHlo.held (c : Thread nD τ) (Pipeline.ucRefs τ sig) (W1 m ρ c) : sProp 𝕄)
    ⊢ iprop((dat0 (V1 m ρ) c).arrays ((dat0 (V1 m ρ) c).arrAt · 0)
        ∗ Pipeline.unscopedRest (Ix := Unit) (Name := ℕ) (U := UR sig nD τ) (Lvl := ℕ) spec0 c (V1 m ρ c)) := by
  have h0 : (unscopedBufs (Ix := Unit) (Name := ℕ) (U := UR sig nD τ) (Lvl := ℕ) c (V1 m ρ c) : sProp 𝕄)
      = StableHlo.held (c : Thread nD τ) (Pipeline.ucRefs τ sig) (W1 m ρ c) := Pipeline.unscopedBufs_held c (W1 m ρ c)
  have h1 : (unscopedBufs (Ix := Unit) (Name := ℕ) (U := UR sig nD τ) (Lvl := ℕ) c (V1 m ρ c) : sProp 𝕄)
      = iprop(Pipeline.arrBufs spec0 c (V1 m ρ c) ∗ Pipeline.unscopedRest spec0 c (V1 m ρ c)) :=
    Pipeline.unscopedBufs_split₀ cfgs 0 winFacts₀0.arr_unscoped c (V1 m ρ c)
  exact (Entails.of_eq (h0.symm.trans h1)).trans
    (Idealize.SL.BI.sep_mono (arrays_of_arrBufs (V1 m ρ) c (V1 m ρ c) _ fun w => A_eq0 (V1 m ρ) c w) (.refl _))

/-- Exit: the arrays at what the pipeline leaves and the rest are the unscoped buffers at the exit contents. -/
theorem exit_join (c : Dev nD) :
    iprop((dat0 (V1 m ρ) c).arrays ((dat0 (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  have h0 : (unscopedBufs (Ix := Unit) (Name := ℕ) (U := UR sig nD τ) (Lvl := ℕ) c (V2 m ρ c) : sProp 𝕄)
      = StableHlo.held (c : Thread nD τ) (Pipeline.ucRefs τ sig) (W2 m ρ c) := Pipeline.unscopedBufs_held c (W2 m ρ c)
  have h1 : (unscopedBufs (Ix := Unit) (Name := ℕ) (U := UR sig nD τ) (Lvl := ℕ) c (V2 m ρ c) : sProp 𝕄)
      = iprop(Pipeline.arrBufs spec0 c (V2 m ρ c) ∗ Pipeline.unscopedRest spec0 c (V2 m ρ c)) :=
    Pipeline.unscopedBufs_split₀ cfgs 0 winFacts₀0.arr_unscoped c (V2 m ρ c)
  have hr : (Pipeline.unscopedRest (Ix := Unit) (Name := ℕ) (U := UR sig nD τ) (Lvl := ℕ) spec0 c (V1 m ρ c) : sProp 𝕄)
      = Pipeline.unscopedRest spec0 c (V2 m ρ c) := by
    unfold Pipeline.unscopedRest
    exact bigSep_congr fun b hb => by rw [rest_exit m ρ c b (Finset.mem_sdiff.mp hb).2]
  rw [hr]
  exact (Idealize.SL.BI.sep_mono (arrBufs_of_arrays (V1 m ρ) c (V2 m ρ c) _ (arrAt_exit m ρ c)) (.refl _)).trans
    (Entails.of_eq (h1.symm.trans h0))

set_option backward.isDefEq.respectTransparency.types false in
/-- The region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The program's three segments: the host operations before the region, the region, the host operations after it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg tailOps tailOps_sub tailOps_fresh (W2 m ρ)) ]

/-- The program IS the run of the segments. -/
theorem main_run (c : Dev nD) : main (F := F) c = Pipeline.Seg.run (segs m ρ) := (main_chain c).trans (by chain_rfl)

set_option backward.isDefEq.respectTransparency.types false in
/-- From any memory with zero counters, every weakly fair execution of the program terminates, nothing faulting, and
    every buffer that outlives the region ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The points' array is written by no host operation and by no write-back: it ends as launched. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [tailOps, hostOps1, hostOps1_1, hostOps1_2, hostOps1_3, hostOps1_4, hostOps1_5, hostOps1_6, hostOps1_7, hostOps1_8, hostOps1_9,
            hostOps1_10, hostOps1_11, hostOps1_12, hostOps1_13, hostOps1_14, hostOps1_15, hostOps1_16, hostOps1_17, hostOps1_18,
            List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The frame: the program runs to the end, nothing faulting, and its argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_arg0 m ρ c)) (run_all m ρ)

end Cert.KernelIdeal.KF

end
-- ==== Proof.Spec.lean ====
/-
  What both programs compute after the pairwise-distance mask is known: the padded list of the mask's set
  entries, row indices over column indices, in row-major order.

  From an 8192 x 8192 mask of bits: the running count of set entries along the flattened mask (`runningCount`), a
  histogram of those counts capped into [0, 524288) (`histogram`), the running count of that histogram (`positions`:
  entry k is the flat position of the k-th set entry, while k is below the number of set entries), its quotient and
  remainder by 8192 (the row and the column), and -1 from the number of set entries on (`padFlag`).
  Every piece is kept as the host operations spell it; nothing here is evaluated.
-/
import proofs.«166916_j89352499626116_1_alg».proof.KernelIdeal
import proofs.«166916_j89352499626116_1_alg».proof.Proof.Gen.KernelIdeal

noncomputable section

namespace Cert.KernelIdeal.Spec

open Idealize.ShloMosaic Cert.KernelIdeal Cert.KernelIdeal.Gen

/-- The running count of set entries along the flattened mask. -/
def runningCount (mask : IVec S8192x8192 1) : IVec S67108864 32 :=
  Host.reduceWindow IntOp.addi ![67108864] ![1] ![67108863] ![0]
    (extui 32 (shapeCast S67108864 mask shapeCasts_S8192x8192_S67108864) natLt_1_32)
    (broadcastInDim S_ ![] bcast_S_S_ (constantI S_ 32 0#32))
    reduceWindows_S67108864_S67108864_w67108864s1p67108863_0 h_S_

/-- The counts clipped below at zero and, where negative, wrapped by 524288; as a column of scatter indices. -/
def bucket (cnt : IVec S67108864 32) : IVec S67108864x1 32 :=
  broadcastInDim S67108864x1 ![0] bcast_S67108864_S67108864x1_0
    (select
      (cmpi .slt (maxsi (broadcastInDim S67108864 ![] bcast_S_S67108864 (constantI S_ 32 0#32)) cnt)
        (broadcastInDim S67108864 ![] bcast_S_S67108864 (constantI S_ 32 0#32)))
      (addi (maxsi (broadcastInDim S67108864 ![] bcast_S_S67108864 (constantI S_ 32 0#32)) cnt)
        (broadcastInDim S67108864 ![] bcast_S_S67108864 (constantI S_ 32 524288#32)))
      (maxsi (broadcastInDim S67108864 ![] bcast_S_S67108864 (constantI S_ 32 0#32)) cnt))

/-- How many flat positions carry each count: ones scattered (added) into 524288 zeros at the bucketed counts. -/
def histogram (mask : IVec S8192x8192 1) : IVec S524288 32 :=
  Host.scatter scatter_S524288_S67108864x1_S67108864_n_0_0_1 IntOp.addi
    (broadcastInDim S524288 ![] bcast_S_S524288 (constantI S_ 32 0#32))
    (bucket (runningCount mask))
    (broadcastInDim S67108864 ![] bcast_S_S67108864 (constantI S_ 32 1#32))

/-- The running count of the histogram: entry k is the flat position of the k-th set entry. -/
def positions (mask : IVec S8192x8192 1) : IVec S524288 32 :=
  Host.reduceWindow IntOp.addi ![524288] ![1] ![524287] ![0] (histogram mask)
    (broadcastInDim S_ ![] bcast_S_S_ (constantI S_ 32 0#32))
    reduceWindows_S524288_S524288_w524288s1p524287_0 h_S_

/-- Floor division of every entry by the scalar `d`: the truncated quotient, less one where the signs differ and the
    remainder is not zero. -/
def floorDiv (x : IVec S524288 32) (d : IVec S_ 32) : IVec S524288 32 :=
  select
    (andi (cmpi .ne (signi x) (broadcastInDim S524288 ![] bcast_S_S524288 (signi d)))
      (cmpi .ne (Host.remsi x (broadcastInDim S524288 ![] bcast_S_S524288 d))
        (broadcastInDim S524288 ![] bcast_S_S524288 (constantI S_ 32 0#32))))
    (subi (Host.divsi x (broadcastInDim S524288 ![] bcast_S_S524288 d))
      (broadcastInDim S524288 ![] bcast_S_S524288 (constantI S_ 32 1#32)))
    (Host.divsi x (broadcastInDim S524288 ![] bcast_S_S524288 d))

/-- The divisor a remainder is taken by: `d`, or 1 where `d` is zero. -/
def safeDivisor (d : IVec S_ 32) : IVec S_ 32 :=
  select (cmpi .eq d (constantI S_ 32 0#32)) (constantI S_ 32 1#32) d

/-- The remainder of every entry by the scalar `d` with the divisor's sign: the truncated remainder, plus the divisor
    where it is not zero and its sign differs from the divisor's. -/
def floorMod (x : IVec S524288 32) (d : IVec S_ 32) : IVec S524288 32 :=
  select
    (andi
      (cmpi .ne
        (cmpi .slt (Host.remsi x (broadcastInDim S524288 ![] bcast_S_S524288 (safeDivisor d)))
          (broadcastInDim S524288 ![] bcast_S_S524288 (constantI S_ 32 0#32)))
        (broadcastInDim S524288 ![] bcast_S_S524288 (cmpi .slt (safeDivisor d) (constantI S_ 32 0#32))))
      (cmpi .ne (Host.remsi x (broadcastInDim S524288 ![] bcast_S_S524288 (safeDivisor d)))
        (broadcastInDim S524288 ![] bcast_S_S524288 (constantI S_ 32 0#32))))
    (addi (Host.remsi x (broadcastInDim S524288 ![] bcast_S_S524288 (safeDivisor d)))
      (broadcastInDim S524288 ![] bcast_S_S524288 (safeDivisor d)))
    (Host.remsi x (broadcastInDim S524288 ![] bcast_S_S524288 (safeDivisor d)))

/-- Entry k is set from the number of set entries of the mask on: those output slots are padding. -/
def padFlag (mask : IVec S8192x8192 1) : IVec S524288 1 :=
  cmpi .sge (iotaInDim S524288 32 0)
    (broadcastInDim S524288 ![] bcast_S_S524288
      (Host.reduce IntOp.addi (extui 32 mask natLt_1_32) (constantI S_ 32 0#32) reducesTo_S8192x8192_S_d0_1 h_S_))

/-- -1 at the padding slots, `x` elsewhere. -/
def padded (flag : IVec S524288 1) (x : IVec S524288 32) : IVec S524288 32 :=
  select flag (broadcastInDim S524288 ![] bcast_S_S524288 (constantI S_ 32 4294967295#32)) x

/-- The rows of the set entries (position / 8192, reduced mod 8192) over their columns (position mod 8192), padded. -/
def tail (mask : IVec S8192x8192 1) : IVec S2x524288 32 :=
  concatenate S2x524288 0
    [⟨S1x524288, broadcastInDim S1x524288 ![1] bcast_S524288_S1x524288_1
        (padded (padFlag mask) (floorMod (floorDiv (positions mask) (constantI S_ 32 8192#32)) (constantI S_ 32 8192#32)))⟩,
     ⟨S1x524288, broadcastInDim S1x524288 ![1] bcast_S524288_S1x524288_1
        (padded (padFlag mask) (floorMod (floorDiv (positions mask) (constantI S_ 32 1#32)) (constantI S_ 32 8192#32)))⟩]
    concatenates_S1x524288_S1x524288_S2x524288_d0

/-- The squared length of each of the 8192 points. -/
def sqLen {F : FTy → Type} [FloatOps F] (pos : FVec F S8192x3 .f32) : FVec F S8192 .f32 :=
  Host.reduceAdd (mulf pos pos) (constant S_ .f32 0x00000000#32) reducesTo_S8192x3_S8192_d1 h_S_

end Cert.KernelIdeal.Spec

end
-- ==== Proof.TailK.lean ====
/-
  What the kernel program's host operations after its region leave behind.  From the region's result they compare
  with zero (the mask), count the set entries along the flattened mask, scatter a histogram of the counts, count again
  to get the flat position of each set entry, split each position into row and column, and pad with -1.
  The operations are cut into ten consecutive chunks; for each chunk and ANY incoming contents, what it leaves at the
  buffers later chunks read is computed, and the chunks are then composed (running a list is a left fold).
-/
import proofs.«166916_j89352499626116_1_alg».proof.Proof.Spec
import proofs.«166916_j89352499626116_1_alg».proof.Proof.TailOps
import Idealize.ShloMosaic.Lib.StableHlo.Run

set_option maxRecDepth 8192

noncomputable section

namespace Cert.KernelIdeal.TailK

open Idealize.ShloMosaic Idealize.ShloMosaic.TcCoe Idealize.ShloMosaic.StableHlo Cert.KernelIdeal Cert.KernelIdeal.Gen

variable {F : FTy → Type} [FloatOps F]

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The ten chunks. -/
def C1 : List (HloOp τ sig (Elt F)) := hostOps1 ++ hostOps1_1
def C2 : List (HloOp τ sig (Elt F)) := hostOps1_2 ++ (hostOps1_3 ++ hostOps1_4)
def C3 : List (HloOp τ sig (Elt F)) := hostOps1_5
def C4 : List (HloOp τ sig (Elt F)) := hostOps1_6 ++ hostOps1_7
def C5 : List (HloOp τ sig (Elt F)) := hostOps1_8 ++ hostOps1_9
def C6 : List (HloOp τ sig (Elt F)) := hostOps1_10 ++ hostOps1_11
def C7 : List (HloOp τ sig (Elt F)) := hostOps1_12 ++ hostOps1_13
def C8 : List (HloOp τ sig (Elt F)) := hostOps1_14 ++ hostOps1_15
def C9 : List (HloOp τ sig (Elt F)) := hostOps1_16 ++ hostOps1_17
def C10 : List (HloOp τ sig (Elt F)) := hostOps1_18

section
variable (V : Valuation τ sig (Elt F))

/-! ### Chunk 1: the mask and its running count -/

attribute [local irreducible] Host.reduceWindow Host.reduce Host.scatter in
set_option maxHeartbeats 400000 in
theorem c1_mask : after (C1 (F := F)) V (main_v6 : DevRef τ sig)
    = cmpi .ne (V (main_v4 : DevRef τ sig)) (broadcastInDim S8192x8192 ![] Gen.bcast_S_S8192x8192 (constantI S_ 32 0#32)) := by
  simp only [C1, hostOps1, hostOps1_1, List.cons_append, List.nil_append]
  after_results_simp
  try rfl

attribute [local irreducible] Host.reduceWindow Host.reduce Host.scatter in
set_option maxHeartbeats 400000 in
theorem c1_count : after (C1 (F := F)) V (main_v7 : DevRef τ sig)
    = Spec.runningCount (cmpi .ne (V (main_v4 : DevRef τ sig)) (broadcastInDim S8192x8192 ![] Gen.bcast_S_S8192x8192 (constantI S_ 32 0#32))) := by
  simp only [C1, hostOps1, hostOps1_1, List.cons_append, List.nil_append]
  after_results_simp
  try rfl

/-! ### Chunk 2: the histogram of the clipped counts -/

attribute [local irreducible] Host.reduceWindow Host.reduce Host.scatter in
set_option maxHeartbeats 400000 in
theorem c2_hist : after (C2 (F := F)) V (main_v17 : DevRef τ sig)
    = Host.scatter scatter_S524288_S67108864x1_S67108864_n_0_0_1 IntOp.addi
        (broadcastInDim S524288 ![] Gen.bcast_S_S524288 (constantI S_ 32 0#32))
        (Spec.bucket (V (main_v7 : DevRef τ sig)))
        (broadcastInDim S67108864 ![] Gen.bcast_S_S67108864 (constantI S_ 32 1#32)) := by
  simp only [C2, hostOps1_2, hostOps1_3, hostOps1_4, List.cons_append, List.nil_append]
  after_results_simp
  try rfl

theorem c2_keep6 : after (C2 (F := F)) V (main_v6 : DevRef τ sig) = V (main_v6 : DevRef τ sig) := by
  simp only [C2, hostOps1_2, hostOps1_3, hostOps1_4, List.cons_append, List.nil_append]
  after_results_simp

/-! ### Chunk 3: the positions -/

attribute [local irreducible] Host.reduceWindow Host.reduce Host.scatter in
set_option maxHeartbeats 400000 in
theorem c3_pos : after (C3 (F := F)) V (main_v18 : DevRef τ sig)
    = Host.reduceWindow IntOp.addi ![524288] ![1] ![524287] ![0] (V (main_v17 : DevRef τ sig))
        (broadcastInDim S_ ![] Gen.bcast_S_S_ (constantI S_ 32 0#32))
        Gen.reduceWindows_S524288_S524288_w524288s1p524287_0 Gen.h_S_ := by
  simp only [C3, hostOps1_5]
  after_results_simp
  try rfl

theorem c3_keep6 : after (C3 (F := F)) V (main_v6 : DevRef τ sig) = V (main_v6 : DevRef τ sig) := by
  simp only [C3, hostOps1_5]
  after_results_simp

/-! ### Chunks 4 to 7: rows and columns -/

attribute [local irreducible] Host.reduceWindow Host.reduce Host.scatter in
set_option maxHeartbeats 400000 in
theorem c4_div : after (C4 (F := F)) V (main_v19 : DevRef τ sig)
    = Spec.floorDiv (V (main_v18 : DevRef τ sig)) (constantI S_ 32 8192#32) := by
  simp only [C4, hostOps1_6, hostOps1_7, List.cons_append, List.nil_append]
  after_results_simp
  try rfl
theorem c4_keep18 : after (C4 (F := F)) V (main_v18 : DevRef τ sig) = V (main_v18 : DevRef τ sig) := by
  simp only [C4, hostOps1_6, hostOps1_7, List.cons_append, List.nil_append]
  after_results_simp
theorem c4_keep6 : after (C4 (F := F)) V (main_v6 : DevRef τ sig) = V (main_v6 : DevRef τ sig) := by
  simp only [C4, hostOps1_6, hostOps1_7, List.cons_append, List.nil_append]
  after_results_simp

attribute [local irreducible] Host.reduceWindow Host.reduce Host.scatter in
set_option maxHeartbeats 400000 in
theorem c5_mod : after (C5 (F := F)) V (main_v20 : DevRef τ sig)
    = Spec.floorMod (V (main_v19 : DevRef τ sig)) (constantI S_ 32 8192#32) := by
  simp only [C5, hostOps1_8, hostOps1_9, List.cons_append, List.nil_append]
  after_results_simp
  try rfl
theorem c5_keep18 : after (C5 (F := F)) V (main_v18 : DevRef τ sig) = V (main_v18 : DevRef τ sig) := by
  simp only [C5, hostOps1_8, hostOps1_9, List.cons_append, List.nil_append]
  after_results_simp
theorem c5_keep6 : after (C5 (F := F)) V (main_v6 : DevRef τ sig) = V (main_v6 : DevRef τ sig) := by
  simp only [C5, hostOps1_8, hostOps1_9, List.cons_append, List.nil_append]
  after_results_simp

attribute [local irreducible] Host.reduceWindow Host.reduce Host.scatter in
set_option maxHeartbeats 400000 in
theorem c6_div : after (C6 (F := F)) V (main_v21 : DevRef τ sig)
    = Spec.floorDiv (V (main_v18 : DevRef τ sig)) (constantI S_ 32 1#32) := by
  simp only [C6, hostOps1_10, hostOps1_11, List.cons_append, List.nil_append]
  after_results_simp
  try rfl
theorem c6_keep20 : after (C6 (F := F)) V (main_v20 : DevRef τ sig) = V (main_v20 : DevRef τ sig) := by
  simp only [C6, hostOps1_10, hostOps1_11, List.cons_append, List.nil_append]
  after_results_simp
theorem c6_keep6 : after (C6 (F := F)) V (main_v6 : DevRef τ sig) = V (main_v6 : DevRef τ sig) := by
  simp only [C6, hostOps1_10, hostOps1_11, List.cons_append, List.nil_append]
  after_results_simp

attribute [local irreducible] Host.reduceWindow Host.reduce Host.scatter in
set_option maxHeartbeats 400000 in
theorem c7_mod : after (C7 (F := F)) V (main_v22 : DevRef τ sig)
    = Spec.floorMod (V (main_v21 : DevRef τ sig)) (constantI S_ 32 8192#32) := by
  simp only [C7, hostOps1_12, hostOps1_13, List.cons_append, List.nil_append]
  after_results_simp
  try rfl
theorem c7_keep20 : after (C7 (F := F)) V (main_v20 : DevRef τ sig) = V (main_v20 : DevRef τ sig) := by
  simp only [C7, hostOps1_12, hostOps1_13, List.cons_append, List.nil_append]
  after_results_simp
theorem c7_keep6 : after (C7 (F := F)) V (main_v6 : DevRef τ sig) = V (main_v6 : DevRef τ sig) := by
  simp only [C7, hostOps1_12, hostOps1_13, List.cons_append, List.nil_append]
  after_results_simp

/-! ### Chunks 8 to 10: padding and stacking -/

attribute [local irreducible] Host.reduceWindow Host.reduce Host.scatter in
set_option maxHeartbeats 400000 in
theorem c8_flag : after (C8 (F := F)) V (main_v27 : DevRef τ sig) = Spec.padFlag (V (main_v6 : DevRef τ sig)) := by
  simp only [C8, hostOps1_14, hostOps1_15, List.cons_append, List.nil_append]
  after_results_simp
  try rfl
attribute [local irreducible] Host.reduceWindow Host.reduce Host.scatter in
set_option maxHeartbeats 400000 in
theorem c8_rows : after (C8 (F := F)) V (main_v28 : DevRef τ sig)
    = Spec.padded (Spec.padFlag (V (main_v6 : DevRef τ sig))) (V (main_v20 : DevRef τ sig)) := by
  simp only [C8, hostOps1_14, hostOps1_15, List.cons_append, List.nil_append]
  after_results_simp
  try rfl
theorem c8_keep22 : after (C8 (F := F)) V (main_v22 : DevRef τ sig) = V (main_v22 : DevRef τ sig) := by
  simp only [C8, hostOps1_14, hostOps1_15, List.cons_append, List.nil_append]
  after_results_simp

attribute [local irreducible] Host.reduceWindow Host.reduce Host.scatter in
set_option maxHeartbeats 400000 in
theorem c9_cols : after (C9 (F := F)) V (main_v29 : DevRef τ sig)
    = Spec.padded (V (main_v27 : DevRef τ sig)) (V (main_v22 : DevRef τ sig)) := by
  simp only [C9, hostOps1_16, hostOps1_17, List.cons_append, List.nil_append]
  after_results_simp
  try rfl
theorem c9_keep28 : after (C9 (F := F)) V (main_v28 : DevRef τ sig) = V (main_v28 : DevRef τ sig) := by
  simp only [C9, hostOps1_16, hostOps1_17, List.cons_append, List.nil_append]
  after_results_simp

attribute [local irreducible] Host.reduceWindow Host.reduce Host.scatter in
set_option maxHeartbeats 400000 in
theorem c10_stack : after (C10 (F := F)) V (main_v32 : DevRef τ sig)
    = concatenate S2x524288 0
        [⟨S1x524288, broadcastInDim S1x524288 ![1] Gen.bcast_S524288_S1x524288_1 (V (main_v28 : DevRef τ sig))⟩,
         ⟨S1x524288, broadcastInDim S1x524288 ![1] Gen.bcast_S524288_S1x524288_1 (V (main_v29 : DevRef τ sig))⟩]
        Gen.concatenates_S1x524288_S1x524288_S2x524288_d0 := by
  simp only [C10, hostOps1_18]
  after_results_simp
  try rfl

end

/-! ### The chunks composed -/

/-- The operations after the region are the ten chunks in order. -/
theorem tailOps_eq : (tailOps : List (HloOp τ sig (Elt F))) = C1 ++ (C2 ++ (C3 ++ (C4 ++ (C5 ++ (C6 ++ (C7 ++ (C8 ++ (C9 ++ C10)))))))) := rfl

attribute [local irreducible] Host.reduceWindow Host.reduce Host.scatter in
set_option maxHeartbeats 400000 in
/-- The result buffer ends at the compaction of the mask "the region's result is not zero". -/
theorem tail_result (V : Valuation τ sig (Elt F)) :
    after (tailOps (F := F)) V (main_v32 : DevRef τ sig)
      = Spec.tail (cmpi .ne (V (main_v4 : DevRef τ sig)) (broadcastInDim S8192x8192 ![] Gen.bcast_S_S8192x8192 (constantI S_ 32 0#32))) := by
  rw [tailOps_eq]
  simp only [after_append]
  rw [c10_stack, c9_cols, c9_keep28, c8_rows, c8_flag, c8_keep22, c7_mod, c7_keep20, c7_keep6, c6_div, c6_keep20, c6_keep6,
    c5_mod, c5_keep18, c5_keep6, c4_div, c4_keep18, c4_keep6, c3_pos, c3_keep6, c2_hist, c2_keep6, c1_mask, c1_count]
  rfl

end Cert.KernelIdeal.TailK

end
-- ==== Proof.KPayload.lean ====
/-
  The kernel body's one stored value, read at one entry of its 1024 x 1024 block.

  For the block at grid point (i0, i1), rows p and columns q: the entry is the 32-bit widening of the bit
  "sqrt(max(a_p + b_q - 2 <u_p, v_q>, 0)) < 5  and  i0*1024 + p differs from i1*1024 + q", where u, v are the two
  1024 x 3 blocks of points, a the column of squared lengths of the first and b the row of squared lengths of the
  second. Everything is stated over variables; no array is evaluated.
-/
import proofs.«166916_j89352499626116_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayload

open Idealize.ShloMosaic Idealize.ShloMosaic.ValueIdx Cert.KernelIdeal Cert.KernelIdeal.Gen
open scoped BigOperators

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's matrix product into a zero accumulator, at `(p, q)`: the inner product of row `p` of the left block
    with row `q` of the right block (both operands contract their second axis). -/
theorem matmul_rows_apply (x0 x1 : FVec Ideal S1024x3 .f32) (p q : Fin 1024) :
    matmul dot_S1024x3_S1024x3_S1024x1024_1_1_0_0_n_n (some .fp32) x0 x1 (constant S1024x1024 .f32 0x00000000#32) (ix2 p q)
      = ∑ k : Fin 3, x0 (ix2 p k) * x1 (ix2 q k) := by
  show FloatOps.matmul dot_S1024x3_S1024x3_S1024x1024_1_1_0_0_n_n (some .fp32) x0 x1 (constant S1024x1024 .f32 0x00000000#32) (ix2 p q) = _
  rw [Ideal.matmul_constant_zero_apply,
    ← Equiv.sum_comp (contrEquiv1 dot_S1024x3_S1024x3_S1024x1024_1_1_0_0_n_n 3 rfl rfl).symm]
  refine Finset.sum_congr rfl fun c _ => ?_
  have c2 := contrEquiv1_symm_val dot_S1024x3_S1024x3_S1024x1024_1_1_0_0_n_n 3 rfl rfl c
  have l2 : dot_S1024x3_S1024x3_S1024x1024_1_1_0_0_n_n.lhsIdx (ix2 p q) ((contrEquiv1 dot_S1024x3_S1024x3_S1024x1024_1_1_0_0_n_n 3 rfl rfl).symm c) = ix2 p c := by
    funext ax; apply Fin.ext
    match ax with
    | ⟨0, _⟩ => simp [DotDims.lhsIdx, dot_S1024x3_S1024x3_S1024x1024_1_1_0_0_n_n]; rfl
    | ⟨1, _⟩ => simp [DotDims.lhsIdx, dot_S1024x3_S1024x3_S1024x1024_1_1_0_0_n_n]; exact c2
  have r2 : dot_S1024x3_S1024x3_S1024x1024_1_1_0_0_n_n.rhsIdx (ix2 p q) ((contrEquiv1 dot_S1024x3_S1024x3_S1024x1024_1_1_0_0_n_n 3 rfl rfl).symm c) = ix2 q c := by
    funext ax; apply Fin.ext
    match ax with
    | ⟨0, _⟩ => simp [DotDims.rhsIdx, dot_S1024x3_S1024x3_S1024x1024_1_1_0_0_n_n]; rfl
    | ⟨1, _⟩ => simp [DotDims.rhsIdx, dot_S1024x3_S1024x3_S1024x1024_1_1_0_0_n_n]; exact c2
  rw [l2, r2]

/-- The global index of row or column `p` of block `a`, as the body computes it in 32-bit words. -/
def gidx (a p : ℕ) : BitVec 32 := IntOp.addi (Scalar.muli (BitVec.ofNat 32 a) 1024#32) (BitVec.ofNat 32 p)

/-- The stored value at `(p, q)`. -/
theorem k0_pay1_apply (i : grid0.Coords) (x0 x1 : FVec Ideal S1024x3 .f32) (x3 : FVec Ideal S1024x1 .f32)
    (x5 : FVec Ideal S1x1024 .f32) (p q : Fin 1024) :
    k0_pay1 (F := Ideal) i x0 x1 x3 x5 (ix2 p q)
      = (IntOp.andi
          (Ideal.cmp .olt
            (Ideal.sqrt (max (x3 (ix2 p (0 : Fin 1)) + x5 (ix2 (0 : Fin 1) q)
                - Ideal.ofBits .f32 0x40000000#32 * ∑ k : Fin 3, x0 (ix2 p k) * x1 (ix2 q k))
              (Ideal.ofBits .f32 0x00000000#32)))
            (Ideal.ofBits .f32 0x40A00000#32))
          (IntOp.cmpi .ne (gidx (i 0).val p.val) (gidx (i 1).val q.val))).setWidth 32 := by
  unfold k0_pay1
  dsimp only
  rw [shapeCast_self, shapeCast_self]
  rw [extui_apply]
  simp only [andi, cmpf, cmpi, sqrt, maximumf, subf, addf, mulf, broadcast]
  rw [broadcastTo_a1_ab_apply, broadcastTo_1b_ab_apply, matmul_rows_apply, broadcastTo_a1_ab_apply,
    broadcastTo_1b_ab_apply]
  simp only [addi, broadcast]
  rw [iota_single_apply .tc S1024x1 32 0 iota_S1024x1_d0_w32 (ix2 p (0 : Fin 1)),
    iota_single_apply .tc S1x1024 32 1 iota_S1x1024_d1_w32 (ix2 (0 : Fin 1) q)]
  rfl

end Cert.KernelIdeal.KPayload

end
-- ==== Proof.KBlocks.lean ====
/-
  From blocks to the array: the 8192 x 8192 result after the region, entry by entry.

  Grid point (i0, i1) of the 8 x 8 grid writes block (i0, i1) of the result, computed from rows i0*1024 … of the
  points, rows i1*1024 … of the points, rows i0*1024 … of the column of squared lengths and columns i1*1024 … of the
  row of squared lengths. So entry (r, c), which lies in the block of point (r / 1024, c / 1024) at offset
  (r % 1024, c % 1024), holds the body's word for point r and point c; the 64 blocks tile the array.
-/
import proofs.«166916_j89352499626116_1_alg».proof.Proof.KDat
import proofs.«166916_j89352499626116_1_alg».proof.Proof.KPayload
import Idealize.ShloMosaic.Lib.Pipeline.Value

noncomputable section

namespace Cert.KernelIdeal.KBlocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KF
open scoped BigOperators

variable (V : (c : Dev nD) → (b : Ref sig .tc) → Buf (Elt Ideal) ((c : Thread nD τ).loc b))

/-- The zero offset of a whole-buffer rectangle. -/
theorem hz : (![0, 0] : Fin 2 → Nat) = fun _ => 0 := funext fun a => by fin_cases a <;> rfl

/-- The stored word at entry `(r, c)` of the result, from the points and the two layouts of their squared lengths. -/
def W (a0 : FVec Ideal S8192x3 .f32) (a2 : FVec Ideal S8192x1 .f32) (a3 : FVec Ideal S1x8192 .f32) (r c : Fin 8192) : BitVec 32 :=
  (IntOp.andi
    (Ideal.cmp .olt
      (Ideal.sqrt (max (a2 (ix2 r (0 : Fin 1)) + a3 (ix2 (0 : Fin 1) c)
          - Ideal.ofBits .f32 0x40000000#32 * ∑ k : Fin 3, a0 (ix2 r k) * a0 (ix2 c k))
        (Ideal.ofBits .f32 0x00000000#32)))
      (Ideal.ofBits .f32 0x40A00000#32))
    (IntOp.cmpi .ne (KPayload.gidx (r.val / 1024) (r.val % 1024)) (KPayload.gidx (c.val / 1024) (c.val % 1024)))).setWidth 32

/-- The whole result array. -/
def G (a0 : FVec Ideal S8192x3 .f32) (a2 : FVec Ideal S8192x1 .f32) (a3 : FVec Ideal S1x8192 .f32) : IVec S8192x8192 32 :=
  fun i => W a0 a2 a3 (i 0) (i 1)

/-- The body's stored value at `(p, q)` of the block at grid point `i` is the word at the global entry, once the four
    blocks are the matching rows and columns of the arrays. -/
theorem word_of_blocks (i : grid0.Coords) (x0 x1 : FVec Ideal S1024x3 .f32) (x3 : FVec Ideal S1024x1 .f32)
    (x5 : FVec Ideal S1x1024 .f32) (p q : Fin 1024)
    (a0 : FVec Ideal S8192x3 .f32) (a2 : FVec Ideal S8192x1 .f32) (a3 : FVec Ideal S1x8192 .f32) (r cc : Fin 8192)
    (hr : r.val = (i 0).val * 1024 + p.val) (hc : cc.val = (i 1).val * 1024 + q.val)
    (h0 : ∀ k : Fin 3, x0 (ix2 p k) = a0 (ix2 r k)) (h1 : ∀ k : Fin 3, x1 (ix2 q k) = a0 (ix2 cc k))
    (h3 : x3 (ix2 p (0 : Fin 1)) = a2 (ix2 r (0 : Fin 1))) (h5 : x5 (ix2 (0 : Fin 1) q) = a3 (ix2 (0 : Fin 1) cc)) :
    k0_pay1 (F := Ideal) i x0 x1 x3 x5 (ix2 p q) = W a0 a2 a3 r cc := by
  have hp := p.isLt
  have hq := q.isLt
  have e0 : r.val / 1024 = (i 0).val := by omega
  have e1 : r.val % 1024 = p.val := by omega
  have e2 : cc.val / 1024 = (i 1).val := by omega
  have e3 : cc.val % 1024 = q.val := by omega
  rw [KPayload.k0_pay1_apply, h3, h5]
  unfold W
  rw [e0, e1, e2, e3]
  simp only [h0, h1]

/-- The block index maps over the grid: each window moves with the grid coordinate it reads, and is at 0 on its
    other axis. -/
theorem idx_facts : ∀ t : Fin cfg0.N,
    win0_0.index t (0 : Fin 2) = (grid0.coords t 0).val ∧ win0_0.index t (1 : Fin 2) = 0
    ∧ win0_1.index t (0 : Fin 2) = (grid0.coords t 1).val ∧ win0_1.index t (1 : Fin 2) = 0
    ∧ win0_2.index t (0 : Fin 2) = (grid0.coords t 0).val ∧ win0_2.index t (1 : Fin 2) = 0
    ∧ win0_3.index t (0 : Fin 2) = 0 ∧ win0_3.index t (1 : Fin 2) = (grid0.coords t 1).val
    ∧ win0_4.index t (0 : Fin 2) = (grid0.coords t 0).val ∧ win0_4.index t (1 : Fin 2) = (grid0.coords t 1).val
    ∧ (grid0.coords t 0).val < 8 ∧ (grid0.coords t 1).val < 8 :=
  (by decide +kernel : ∀ t : Fin grid0.N, _)

/-- Every block of the result is some point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- What point `t` writes back is its block of the one whole-array function `G`. -/
theorem flushed_eq (c : Dev nD) (t : Fin cfg0.N) :
    (dat0 (F := Ideal) V c).flushed 4 t
      = ((cfg0.win 4).blk t).view.read (Elt Ideal) (G (V c main_arg0) (V c main_v2) (V c main_v3)) := by
  show (cfg0.win 4).cut (grid0.coords t) ((dat0 (F := Ideal) V c).after 4 t) = _
  rw [after0_4]
  unfold out0_4
  rw [View.canon_unit_zero hz]
  simp only [View.ld_unit_zero (S := S1024x3) hz, View.ld_unit_zero (S := S1024x1) hz, View.ld_unit_zero (S := S1x1024) hz]
  funext j
  obtain ⟨p, q, rfl⟩ : ∃ (p q : Fin 1024), j = ix2 p q := ⟨j 0, j 1, eq_ix2 j⟩
  obtain ⟨e0, e1, e2, e3, e4, e5, e6, e7, e8, e9, b0, b1⟩ := idx_facts t
  show k0_pay1 (F := Ideal) (grid0.coords t) (iblk0 V c 0 t) (iblk0 V c 1 t) (iblk0 V c 2 t) (iblk0 V c 3 t) (ix2 p q)
    = W (V c main_arg0) (V c main_v2) (V c main_v3) (((cfg0.win 4).blk t).view.emb (ix2 p q) 0)
        (((cfg0.win 4).blk t).view.emb (ix2 p q) 1)
  refine word_of_blocks (grid0.coords t) (iblk0 V c 0 t) (iblk0 V c 1 t) (iblk0 V c 2 t) (iblk0 V c 3 t) p q
    (V c main_arg0) (V c main_v2) (V c main_v3) _ _ ?_ ?_ ?_ ?_ ?_ ?_
  · show win0_4.index t (0 : Fin 2) * 1024 + 1 * p.val = _
    omega
  · show win0_4.index t (1 : Fin 2) * 1024 + 1 * q.val = _
    omega
  · intro k
    show V c main_arg0 (((cfg0.win 0).blk t).view.emb (ix2 p k)) = _
    refine congrArg (V c main_arg0) (funext fun a => Fin.ext ?_)
    match a with
    | ⟨0, _⟩ =>
      show win0_0.index t (0 : Fin 2) * 1024 + 1 * p.val = win0_4.index t (0 : Fin 2) * 1024 + 1 * p.val
      omega
    | ⟨1, _⟩ =>
      show win0_0.index t (1 : Fin 2) * 3 + 1 * k.val = k.val
      omega
  · intro k
    show V c main_arg0 (((cfg0.win 1).blk t).view.emb (ix2 q k)) = _
    refine congrArg (V c main_arg0) (funext fun a => Fin.ext ?_)
    match a with
    | ⟨0, _⟩ =>
      show win0_1.index t (0 : Fin 2) * 1024 + 1 * q.val = win0_4.index t (1 : Fin 2) * 1024 + 1 * q.val
      omega
    | ⟨1, _⟩ =>
      show win0_1.index t (1 : Fin 2) * 3 + 1 * k.val = k.val
      omega
  · show V c main_v2 (((cfg0.win 2).blk t).view.emb (ix2 p (0 : Fin 1))) = _
    refine congrArg (V c main_v2) (funext fun a => Fin.ext ?_)
    match a with
    | ⟨0, _⟩ =>
      show win0_2.index t (0 : Fin 2) * 1024 + 1 * p.val = win0_4.index t (0 : Fin 2) * 1024 + 1 * p.val
      omega
    | ⟨1, _⟩ =>
      show win0_2.index t (1 : Fin 2) * 1 + 1 * 0 = 0
      omega
  · show V c main_v3 (((cfg0.win 3).blk t).view.emb (ix2 (0 : Fin 1) q)) = _
    refine congrArg (V c main_v3) (funext fun a => Fin.ext ?_)
    match a with
    | ⟨0, _⟩ =>
      show win0_3.index t (0 : Fin 2) * 1 + 1 * 0 = 0
      omega
    | ⟨1, _⟩ =>
      show win0_3.index t (1 : Fin 2) * 1024 + 1 * q.val = win0_4.index t (1 : Fin 2) * 1024 + 1 * q.val
      omega

/-- An entry of the result is in point `t`'s block exactly when each coordinate is in the block's range. -/
theorem mem_blk (t : Fin cfg0.N) (i : S8192x8192.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v4).slice (win0_4.rect t)).set ↔ _
  rw [View.set_slice_whole, Rect.mem_set_unit]
  exact Iff.rfl

/-- Every entry of the result is in the block of the point `(r / 1024, c / 1024)`. -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- The result array after the region, entry by entry. -/
theorem arr_eq (c : Dev nD) :
    (dat0 (F := Ideal) V c).arrAt 4 cfg0.N = G (V c main_arg0) (V c main_v2) (V c main_v3) :=
  (dat0 (F := Ideal) V c).arrAt_eq_of_cover 4 (G (V c main_arg0) (V c main_v2) (V c main_v3))
    (fun t _ => flushed_eq V c t) cover

/-- The same at one entry. -/
theorem arr_apply (c : Dev nD) (r cc : Fin 8192) :
    (dat0 (F := Ideal) V c).arrAt 4 cfg0.N (ix2 r cc) = W (V c main_arg0) (V c main_v2) (V c main_v3) r cc := by
  rw [arr_eq]; rfl

end Cert.KernelIdeal.KBlocks

end
-- ==== Proof.RSpec.lean ====
/-
  The reference's mask, as its host operations spell it: for points p_0 … p_8191 in 3-space, entry (i, j) is set
  when sqrt(max(|p_i|^2 + |p_j|^2 - 2 <p_i, p_j>, 0)) + 6 * [i = j] < 5 — the pairwise distance below the cutoff,
  the diagonal pushed above it.
-/
import proofs.«166916_j89352499626116_1_alg».proof.ReferenceIdeal
import proofs.«166916_j89352499626116_1_alg».proof.Proof.Gen.ReferenceIdeal

noncomputable section

namespace Cert.ReferenceIdeal.RSpec

open Idealize.ShloMosaic Cert.ReferenceIdeal Cert.ReferenceIdeal.Gen

variable {F : FTy → Type} [FloatOps F]

/-- The squared length of each point. -/
def sqLen (pos : FVec F S8192x3 .f32) : FVec F S8192 .f32 :=
  Host.reduceAdd (mulf pos pos) (constant S_ .f32 0x00000000#32) reducesTo_S8192x3_S8192_d1 h_S_

/-- The pairwise distances by the Gram identity, clamped at zero before the root. -/
def dist (pos : FVec F S8192x3 .f32) : FVec F S8192x8192 .f32 :=
  Host.sqrt
    (maximumf
      (subf
        (addf
          (broadcastInDim S8192x8192 ![0, 1] bcast_S8192x1_S8192x8192_0_1 (broadcastInDim S8192x1 ![0] bcast_S8192_S8192x1_0 (sqLen pos)))
          (broadcastInDim S8192x8192 ![0, 1] bcast_S1x8192_S8192x8192_0_1 (broadcastInDim S1x8192 ![1] bcast_S8192_S1x8192_1 (sqLen pos))))
        (mulf (broadcastInDim S8192x8192 ![] bcast_S_S8192x8192 (constant S_ .f32 0x40000000#32))
          (Host.dotGeneral dot_S8192x3_S3x8192_S8192x8192_1_0_0_1_n_n none pos
            (transpose S3x8192 [1, 0] pos transposes_S8192x3_S3x8192_1_0))))
      (broadcastInDim S8192x8192 ![] bcast_S_S8192x8192 (constant S_ .f32 0x00000000#32)))

/-- One on the diagonal, zero off it, as floats. -/
def eye : FVec F S8192x8192 .f32 :=
  uitofp .f32
    (cmpi .eq
      (addi (iotaInDim S8192x8192 32 0) (broadcastInDim S8192x8192 ![] bcast_S_S8192x8192 (constantI S_ 32 0#32)))
      (iotaInDim S8192x8192 32 1))

/-- The reference's mask: distance plus six on the diagonal, below five. -/
def refMask (pos : FVec F S8192x3 .f32) : IVec S8192x8192 1 :=
  cmpf .olt
    (addf (dist pos)
      (mulf (broadcastInDim S8192x8192 ![] bcast_S_S8192x8192 (constant S_ .f32 0x40C00000#32)) (eye (F := F))))
    (broadcastInDim S8192x8192 ![] bcast_S_S8192x8192 (constant S_ .f32 0x40A00000#32))

end Cert.ReferenceIdeal.RSpec

end
-- ==== Proof.RMask.lean ====
/-
  The reference's mask read at one entry (r, c): the bit
  "sqrt(max(|p_r|^2 + |p_c|^2 - 2 <p_r, p_c>, 0)) + 6 * [r = c] < 5", with the squared lengths kept as the host's sum
  and the diagonal indicator as the 0/1 value of the word comparison of the two iotas.
-/
import proofs.«166916_j89352499626116_1_alg».proof.Proof.RSpec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RMask

open Idealize.ShloMosaic Idealize.ShloMosaic.ValueIdx Cert.ReferenceIdeal Cert.ReferenceIdeal.Gen Cert.ReferenceIdeal.RSpec
open scoped BigOperators

/-- A vector laid out as a column and spread over the columns reads, at `(r, c)`, its entry `r`. -/
theorem colSpread_apply {α : Type} (v : S8192.Idx → α) (r c : Fin 8192) :
    broadcastInDim S8192x8192 ![0, 1] bcast_S8192x1_S8192x8192_0_1
      (broadcastInDim S8192x1 ![0] bcast_S8192_S8192x1_0 v) (ix2 r c) = v (ix1 r) := by
  refine (broadcastInDim_apply _ _ _ (ix2 r c) (ix2 r (0 : Fin 1)) fun a => ?_).trans
    (broadcastInDim_apply _ _ v (ix2 r (0 : Fin 1)) (ix1 r) fun a => ?_)
  · match a with
    | ⟨0, _⟩ => rfl
    | ⟨1, _⟩ => rfl
  · match a with
    | ⟨0, _⟩ => rfl

/-- A vector laid out as a row and spread over the rows reads, at `(r, c)`, its entry `c`. -/
theorem rowSpread_apply {α : Type} (v : S8192.Idx → α) (r c : Fin 8192) :
    broadcastInDim S8192x8192 ![0, 1] bcast_S1x8192_S8192x8192_0_1
      (broadcastInDim S1x8192 ![1] bcast_S8192_S1x8192_1 v) (ix2 r c) = v (ix1 c) := by
  refine (broadcastInDim_apply _ _ _ (ix2 r c) (ix2 (0 : Fin 1) c) fun a => ?_).trans
    (broadcastInDim_apply _ _ v (ix2 (0 : Fin 1) c) (ix1 c) fun a => ?_)
  · match a with
    | ⟨0, _⟩ => rfl
    | ⟨1, _⟩ => rfl
  · match a with
    | ⟨0, _⟩ => rfl

/-- The product of the points with their transpose, at `(r, c)`: the inner product of points `r` and `c`. -/
theorem gram_apply (pos : FVec Ideal S8192x3 .f32) (r c : Fin 8192) :
    Host.dotGeneral dot_S8192x3_S3x8192_S8192x8192_1_0_0_1_n_n none pos
        (transpose S3x8192 [1, 0] pos transposes_S8192x3_S3x8192_1_0) (ix2 r c)
      = ∑ k : Fin 3, pos (ix2 r k) * pos (ix2 c k) := by
  show FloatOps.dotGeneral dot_S8192x3_S3x8192_S8192x8192_1_0_0_1_n_n none _ pos _ (ix2 r c) = _
  rw [Ideal.dotGeneral_apply, ← Equiv.sum_comp (contrEquiv1 dot_S8192x3_S3x8192_S8192x8192_1_0_0_1_n_n 3 rfl rfl).symm]
  refine Finset.sum_congr rfl fun k _ => ?_
  have c2 := contrEquiv1_symm_val dot_S8192x3_S3x8192_S8192x8192_1_0_0_1_n_n 3 rfl rfl k
  have l2 : dot_S8192x3_S3x8192_S8192x8192_1_0_0_1_n_n.lhsIdx (ix2 r c) ((contrEquiv1 dot_S8192x3_S3x8192_S8192x8192_1_0_0_1_n_n 3 rfl rfl).symm k) = ix2 r k := by
    funext ax; apply Fin.ext
    match ax with
    | ⟨0, _⟩ => simp [DotDims.lhsIdx, dot_S8192x3_S3x8192_S8192x8192_1_0_0_1_n_n]; rfl
    | ⟨1, _⟩ => simp [DotDims.lhsIdx, dot_S8192x3_S3x8192_S8192x8192_1_0_0_1_n_n]; exact c2
  have r2 : dot_S8192x3_S3x8192_S8192x8192_1_0_0_1_n_n.rhsIdx (ix2 r c) ((contrEquiv1 dot_S8192x3_S3x8192_S8192x8192_1_0_0_1_n_n 3 rfl rfl).symm k) = ix2 k c := by
    funext ax; apply Fin.ext
    match ax with
    | ⟨0, _⟩ => simp [DotDims.rhsIdx, dot_S8192x3_S3x8192_S8192x8192_1_0_0_1_n_n]; exact c2
    | ⟨1, _⟩ => simp [DotDims.rhsIdx, dot_S8192x3_S3x8192_S8192x8192_1_0_0_1_n_n]; rfl
  rw [l2, r2, transpose_ix2_apply]

/-- The pairwise distance at `(r, c)`. -/
theorem dist_apply (pos : FVec Ideal S8192x3 .f32) (r c : Fin 8192) :
    RSpec.dist pos (ix2 r c)
      = Ideal.sqrt (max (sqLen pos (ix1 r) + sqLen pos (ix1 c)
          - Ideal.ofBits .f32 0x40000000#32 * ∑ k : Fin 3, pos (ix2 r k) * pos (ix2 c k))
          (Ideal.ofBits .f32 0x00000000#32)) := by
  unfold RSpec.dist
  simp only [Host.sqrt, maximumf, subf, addf, mulf]
  rw [colSpread_apply, rowSpread_apply, gram_apply, broadcastInDim_scalar_apply, broadcastInDim_scalar_apply]
  rfl

/-- The diagonal indicator at `(r, c)`, as a word. -/
def diagBit (r c : ℕ) : BitVec 1 := IntOp.cmpi .eq (IntOp.addi (BitVec.ofNat 32 r) 0#32) (BitVec.ofNat 32 c)

/-- The mask at `(r, c)`. -/
theorem refMask_apply (pos : FVec Ideal S8192x3 .f32) (r c : Fin 8192) :
    refMask pos (ix2 r c)
      = Ideal.cmp .olt
          (Ideal.sqrt (max (sqLen pos (ix1 r) + sqLen pos (ix1 c)
              - Ideal.ofBits .f32 0x40000000#32 * ∑ k : Fin 3, pos (ix2 r k) * pos (ix2 c k))
              (Ideal.ofBits .f32 0x00000000#32))
            + Ideal.ofBits .f32 0x40C00000#32 * (((diagBit r.val c.val).toNat : ℝ) : EReal))
          (Ideal.ofBits .f32 0x40A00000#32) := by
  unfold refMask
  simp only [cmpf, addf, mulf]
  rw [dist_apply, broadcastInDim_scalar_apply, broadcastInDim_scalar_apply]
  rfl

end Cert.ReferenceIdeal.RMask

end
-- ==== Proof.KMaskEq.lean ====
/-
  The pointwise law between the kernel's mask and the reference's.

  At entry (r, c) the kernel stores the word of "dist < 5 and r differs from c" (the two global indices rebuilt in
  32-bit words from block number and offset), and the host compares that word with zero; the reference compares
  dist + 6 * [r = c] with 5. Off the diagonal the added term is 6 * 0 = 0; on it the kernel's bit is 0 and the
  reference's is 0 too, since a square root of a value that is not negative is not negative and so dist + 6 is at
  least 6. No finiteness of the points is used.
-/
import proofs.«166916_j89352499626116_1_alg».proof.Proof.KPayload
import proofs.«166916_j89352499626116_1_alg».proof.Proof.Spec
import proofs.«166916_j89352499626116_1_alg».proof.Proof.RMask
import Idealize.ShloMosaic.Lib.IdealHost

noncomputable section

namespace Cert.KernelIdeal.KMaskEq

open Idealize.ShloMosaic Idealize.ShloMosaic.ValueIdx Cert.KernelIdeal Cert.KernelIdeal.Gen
open scoped BigOperators

/-! ## Words -/

/-- Block number times 1024 plus offset, in 32-bit words, is the global index as a word. -/
theorem gidx_eq (r : ℕ) (hr : r < 8192) : KPayload.gidx (r / 1024) (r % 1024) = BitVec.ofNat 32 r := by
  unfold KPayload.gidx Scalar.muli IntOp.addi IntOp.muli
  apply BitVec.eq_of_toNat_eq
  simp only [BitVec.toNat_add, BitVec.toNat_mul, BitVec.toNat_ofNat]
  omega

/-- Indices below 8192 are equal as 32-bit words exactly when they are equal. -/
theorem ofNat_inj {r c : ℕ} (hr : r < 8192) (hc : c < 8192) : BitVec.ofNat 32 r = BitVec.ofNat 32 c ↔ r = c := by
  constructor
  · intro h
    have := congrArg BitVec.toNat h
    simp only [BitVec.toNat_ofNat] at this
    omega
  · rintro rfl; rfl

/-- A bit and-ed with 0, widened, is the zero word. -/
theorem widen_and_zero (X : BitVec 1) : IntOp.cmpi .ne ((IntOp.andi X 0#1).setWidth 32) 0#32 = 0#1 := by
  rcases BitVec.eq_zero_or_eq_one X with rfl | rfl <;> decide

/-- A bit and-ed with 1, widened and compared with the zero word, is the bit. -/
theorem widen_and_one (X : BitVec 1) : IntOp.cmpi .ne ((IntOp.andi X 1#1).setWidth 32) 0#32 = X := by
  rcases BitVec.eq_zero_or_eq_one X with rfl | rfl <;> decide

/-! ## Extended reals -/

/-- The square root of an extended real that is not negative is not negative. -/
theorem sqrt_nonneg {x : EReal} (hx : 0 ≤ x) : 0 ≤ Ideal.sqrt x := by
  induction x using EReal.rec with
  | bot => exact absurd hx (by simp)
  | top => simp
  | coe r =>
    have hr : 0 ≤ r := EReal.coe_nonneg.mp hx
    rw [Ideal.sqrt_coe, if_neg (not_lt.mpr hr)]
    exact EReal.coe_nonneg.mpr (Real.sqrt_nonneg r)

/-- The word `0x40A00000` is five. -/
theorem ofBits_five : Ideal.ofBits .f32 0x40A00000#32 = ((5 : ℝ) : EReal) := by
  simp [Ideal.ofBits, Ideal.ieee, -EReal.coe_mul]; norm_num

/-- The word `0x40C00000` is six. -/
theorem ofBits_six : Ideal.ofBits .f32 0x40C00000#32 = ((6 : ℝ) : EReal) := by
  simp [Ideal.ofBits, Ideal.ieee, -EReal.coe_mul]; norm_num

/-- A strict comparison that fails is the zero bit. -/
theorem cmp_olt_of_le {x y : EReal} (h : y ≤ x) : Ideal.cmp .olt x y = 0#1 := by
  simp [Ideal.cmp, not_lt.mpr h]

/-! ## The law at one entry -/

/-- For any value `x` under the clamp and root: the kernel's stored word compared with zero is the reference's bit. -/
theorem bit_law (x : EReal) (r c : ℕ) (hr : r < 8192) (hc : c < 8192) :
    IntOp.cmpi .ne
        ((IntOp.andi
            (Ideal.cmp .olt (Ideal.sqrt (max x (Ideal.ofBits .f32 0x00000000#32))) (Ideal.ofBits .f32 0x40A00000#32))
            (IntOp.cmpi .ne (KPayload.gidx (r / 1024) (r % 1024)) (KPayload.gidx (c / 1024) (c % 1024)))).setWidth 32)
        0#32
      = Ideal.cmp .olt
          (Ideal.sqrt (max x (Ideal.ofBits .f32 0x00000000#32))
            + Ideal.ofBits .f32 0x40C00000#32 * (((Cert.ReferenceIdeal.RMask.diagBit r c).toNat : ℝ) : EReal))
          (Ideal.ofBits .f32 0x40A00000#32) := by
  rw [gidx_eq r hr, gidx_eq c hc]
  unfold Cert.ReferenceIdeal.RMask.diagBit
  by_cases h : r = c
  · subst h
    have e1 : IntOp.cmpi .ne (BitVec.ofNat 32 r) (BitVec.ofNat 32 r) = 0#1 := by simp [IntOp.cmpi]
    have e2 : IntOp.cmpi .eq (IntOp.addi (BitVec.ofNat 32 r) 0#32) (BitVec.ofNat 32 r) = 1#1 := by
      simp [IntOp.cmpi, IntOp.addi]
    rw [e1, e2, widen_and_zero]
    symm
    apply cmp_olt_of_le
    have h0 : (0 : EReal) ≤ Ideal.sqrt (max x (Ideal.ofBits .f32 0x00000000#32)) :=
      sqrt_nonneg (by rw [Ideal.ofBits_zero_f32]; exact le_max_right _ _)
    have h1 : (((1#1 : BitVec 1).toNat : ℝ) : EReal) = 1 := by simp
    rw [h1, mul_one, ofBits_five, ofBits_six]
    refine le_trans ?_ (le_add_of_nonneg_left h0)
    exact_mod_cast (by norm_num : (5 : ℝ) ≤ 6)
  · have hne : BitVec.ofNat 32 r ≠ BitVec.ofNat 32 c := (ofNat_inj hr hc).not.mpr h
    have e1 : IntOp.cmpi .ne (BitVec.ofNat 32 r) (BitVec.ofNat 32 c) = 1#1 := by
      show BitVec.ofBool (BitVec.ofNat 32 r != BitVec.ofNat 32 c) = 1#1
      rw [bne_iff_ne.mpr hne]; rfl
    have e2 : IntOp.cmpi .eq (IntOp.addi (BitVec.ofNat 32 r) 0#32) (BitVec.ofNat 32 c) = 0#1 := by
      show BitVec.ofBool (BitVec.ofNat 32 r + 0#32 == BitVec.ofNat 32 c) = 0#1
      rw [BitVec.add_zero, beq_eq_false_iff_ne.mpr hne]; rfl
    rw [e1, e2, widen_and_one]
    have h1 : (((0#1 : BitVec 1).toNat : ℝ) : EReal) = 0 := by simp
    rw [h1, mul_zero, add_zero]

/-! ## The masks are equal -/

/-- If the region's result array holds, entry by entry, the body's word for the points' rows and squared lengths, then
    its comparison with zero is the reference's mask. -/
theorem mask_eq (pos : FVec Ideal S8192x3 .f32) (A : IVec S8192x8192 32)
    (hA : ∀ r c : Fin 8192, A (ix2 r c)
      = (IntOp.andi
          (Ideal.cmp .olt
            (Ideal.sqrt (max (Spec.sqLen pos (ix1 r) + Spec.sqLen pos (ix1 c)
                - Ideal.ofBits .f32 0x40000000#32 * ∑ k : Fin 3, pos (ix2 r k) * pos (ix2 c k))
              (Ideal.ofBits .f32 0x00000000#32)))
            (Ideal.ofBits .f32 0x40A00000#32))
          (IntOp.cmpi .ne (KPayload.gidx (r.val / 1024) (r.val % 1024))
            (KPayload.gidx (c.val / 1024) (c.val % 1024)))).setWidth 32) :
    cmpi .ne A (broadcastInDim S8192x8192 ![] Gen.bcast_S_S8192x8192 (constantI S_ 32 0#32))
      = Cert.ReferenceIdeal.RSpec.refMask pos := by
  funext j
  obtain ⟨r, c, rfl⟩ : ∃ (r c : Fin 8192), j = ix2 r c := ⟨j 0, j 1, eq_ix2 j⟩
  have hs : Cert.ReferenceIdeal.RSpec.sqLen pos = Spec.sqLen pos := rfl
  rw [Cert.ReferenceIdeal.RMask.refMask_apply, hs]
  show IntOp.cmpi .ne (A (ix2 r c))
    (broadcastInDim S8192x8192 ![] Gen.bcast_S_S8192x8192 (constantI S_ 32 0#32) (ix2 r c)) = _
  rw [broadcastInDim_scalar_apply, hA r c]
  exact bit_law _ r.val c.val r.isLt c.isLt

end Cert.KernelIdeal.KMaskEq

end
-- ==== Proof.KResult.lean ====
/-
  The kernel's mask is the reference's: the region's result array compared with zero, given that the two layouts of
  the squared lengths the region reads are the host's sums of squares of the points' coordinates, laid out as a column
  and as a row.
-/
import proofs.«166916_j89352499626116_1_alg».proof.Proof.KBlocks
import proofs.«166916_j89352499626116_1_alg».proof.Proof.KMaskEq

noncomputable section

namespace Cert.KernelIdeal.KResult

open Idealize.ShloMosaic Idealize.ShloMosaic.TcCoe Idealize.ShloMosaic.ValueIdx Idealize.SL.Sem
open Cert.KernelIdeal Cert.KernelIdeal.Gen Cert.KernelIdeal.KF
open scoped BigOperators

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (V : (c : Dev nD) → (b : Ref sig .tc) → Buf (Elt Ideal) ((c : Thread nD τ).loc b))

/-- The result array compared with zero is the reference's mask of the points. -/
theorem result_mask (c : Dev nD)
    (h2 : (V c main_v2 : FVec Ideal S8192x1 .f32)
      = shapeCast S8192x1 (Spec.sqLen (F := Ideal) (V c main_arg0 : FVec Ideal S8192x3 .f32)) shapeCasts_S8192_S8192x1)
    (h3 : (V c main_v3 : FVec Ideal S1x8192 .f32)
      = shapeCast S1x8192 (Spec.sqLen (F := Ideal) (V c main_arg0 : FVec Ideal S8192x3 .f32)) shapeCasts_S8192_S1x8192) :
    cmpi .ne ((dat0 (F := Ideal) V c).arrAt 4 cfg0.N : IVec S8192x8192 32)
        (broadcastInDim S8192x8192 ![] Gen.bcast_S_S8192x8192 (constantI S_ 32 0#32))
      = Cert.ReferenceIdeal.RSpec.refMask (F := Ideal) (V c main_arg0) := by
  refine KMaskEq.mask_eq (V c main_arg0) _ fun r cc => ?_
  rw [KBlocks.arr_apply]
  unfold KBlocks.W
  rw [h2, h3, shapeCast_a_a1_apply, shapeCast_a_1a_apply]

end Cert.KernelIdeal.KResult

end
-- ==== Proof.KValue.lean ====
/-
  The kernel program's result, at the extended reals: the padded list of set entries of the reference's mask.
  The region's result array is, index by index, the body's stored word (the blocks cover the array); compared with
  zero it is the reference's mask; everything after the region is the compaction of that mask.
-/
import proofs.«166916_j89352499626116_1_alg».proof.Proof.KFrame
import proofs.«166916_j89352499626116_1_alg».proof.Proof.TailK
import proofs.«166916_j89352499626116_1_alg».proof.Proof.KResult

set_option maxRecDepth 16384

noncomputable section

namespace Cert.KernelIdeal.KV

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-- At the region's entry the points' array is as launched, -/
theorem entry_arg0 (c : Dev nD) : KF.V1 m ρ c main_arg0 = m ((c : Thread nD τ).loc main_arg0) := by
  show after hostOps0 (KF.W0 m ρ c) (Proc.devRef .tc main_arg0) = _
  after_results

attribute [local irreducible] Host.reduceAdd in
/-- the column of squared lengths is the squared lengths reshaped, -/
theorem entry_v2 (c : Dev nD) : (KF.V1 m ρ c main_v2 : FVec Ideal S8192x1 .f32)
    = shapeCast S8192x1 (Spec.sqLen (F := Ideal) (KF.V1 m ρ c main_arg0 : FVec Ideal S8192x3 .f32)) shapeCasts_S8192_S8192x1 := by
  show after hostOps0 (KF.W0 m ρ c) (Proc.devRef .tc main_v2) = shapeCast S8192x1 (Spec.sqLen (F := Ideal) (after hostOps0 (KF.W0 m ρ c) (Proc.devRef .tc main_arg0))) shapeCasts_S8192_S8192x1
  after_results
  rfl

attribute [local irreducible] Host.reduceAdd in
/-- and so is the row. -/
theorem entry_v3 (c : Dev nD) : (KF.V1 m ρ c main_v3 : FVec Ideal S1x8192 .f32)
    = shapeCast S1x8192 (Spec.sqLen (F := Ideal) (KF.V1 m ρ c main_arg0 : FVec Ideal S8192x3 .f32)) shapeCasts_S8192_S1x8192 := by
  show after hostOps0 (KF.W0 m ρ c) (Proc.devRef .tc main_v3) = shapeCast S1x8192 (Spec.sqLen (F := Ideal) (after hostOps0 (KF.W0 m ρ c) (Proc.devRef .tc main_arg0))) shapeCasts_S8192_S1x8192
  after_results
  rfl

/-- What the result buffer holds at the return. -/
theorem result_eq (c : Dev nD) :
    KF.W3 m ρ c (Proc.devRef .tc main_v32) = Spec.tail (Cert.ReferenceIdeal.RSpec.refMask (F := Ideal) (m ((c : Thread nD τ).loc main_arg0))) := by
  have h1 := TailK.tail_result (F := Ideal) (KF.W2 m ρ c)
  have h2 := KF.W2_out m ρ c
  have h3 := KResult.result_mask (KF.V1 m ρ) c (entry_v2 m ρ c) (entry_v3 m ρ c)
  have h4 := entry_arg0 m ρ c
  refine h1.trans (congrArg Spec.tail ?_)
  rw [h2]
  refine h3.trans ?_
  rw [h4]

/-- Every weakly fair execution of the kernel's program terminates with the result at the compaction of the
    reference's mask of the launched points, the points unchanged. -/
theorem run_value : θ_run defs (onTc (τ := τ) (main (F := Ideal))) ⟨m, fun _ => 0, ρ⟩ (fun r => ∀ c : Dev nD,
      r.2.mem ((c.tc : Thread nD τ).loc main_v32) = Spec.tail (Cert.ReferenceIdeal.RSpec.refMask (F := Ideal) (m ((c.tc : Thread nD τ).loc main_arg0)))
      ∧ r.2.mem ((c.tc : Thread nD τ).loc main_arg0) = m ((c.tc : Thread nD τ).loc main_arg0)) :=
  (θ_run defs _ _).mono (fun r h c =>
      ⟨(h c _ (KF.mem_uc main_v32 (by decide))).trans (result_eq m ρ c),
       (h c _ (KF.mem_uc main_arg0 (by decide))).trans (KF.W3_arg0 m ρ c)⟩)
    (KF.run_all m ρ)

end Cert.KernelIdeal.KV

end
-- ==== Proof.RefOps.lean ====
/-
  The reference program's entry function as literal lists of its host operations, every call of a module-local
  function replaced by the callee's operations over that call's own buffers, in program order: first the 32 operations
  that compute the mask of close pairs, then, stretch by stretch, the compaction of the mask's set entries (the
  running counts, the histogram, the positions, the rows and columns, the padding).
-/
import proofs.«166916_j89352499626116_1_alg».proof.ReferenceIdeal
import proofs.«166916_j89352499626116_1_alg».proof.Proof.Gen.ReferenceIdeal
import proofs.«166916_j89352499626116_1_alg».proof.Proof.RSpec
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- 32 host operations of @main, in order. -/
abbrev headOps : List (HloOp τ sig (Elt F)) :=
  [ StableHlo.binary main_arg0 main_arg0 main_v0 (mulf : (⟨S8192x3, .f32⟩ : BufTy).Contents (Elt F) → (⟨S8192x3, .f32⟩ : BufTy).Contents (Elt F) → (⟨S8192x3, .f32⟩ : BufTy).Contents (Elt F)),
    StableHlo.nullary main_cst (constant S_ .f32 0x00000000#32),
    StableHlo.binary main_v0 main_cst main_v1 ((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)),
    StableHlo.unary main_v1 main_v2 (broadcastInDim S8192x1 ![0] bcast_S8192_S8192x1_0 : (⟨S8192, .f32⟩ : BufTy).Contents (Elt F) → (⟨S8192x1, .f32⟩ : BufTy).Contents (Elt F)),
    StableHlo.unary main_v1 main_v3 (broadcastInDim S1x8192 ![1] bcast_S8192_S1x8192_1 : (⟨S8192, .f32⟩ : BufTy).Contents (Elt F) → (⟨S1x8192, .f32⟩ : BufTy).Contents (Elt F)),
    StableHlo.unary main_v2 main_v4 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    StableHlo.unary main_arg0 main_v7 ((transpose S3x8192 [1, 0] · transposes_S8192x3_S3x8192_1_0) : (⟨S8192x3, .f32⟩ : BufTy).Contents (Elt F) → (⟨S3x8192, .f32⟩ : BufTy).Contents (Elt F)),
    StableHlo.binary main_arg0 main_v7 main_v8 ((fun l r => Host.dotGeneral dot_S8192x3_S3x8192_S8192x8192_1_0_0_1_n_n none l r) : (⟨S8192x3, .f32⟩ : BufTy).Contents (Elt F) → (⟨S3x8192, .f32⟩ : BufTy).Contents (Elt F) → (⟨S8192x8192, .f32⟩ : BufTy).Contents (Elt F)),
    StableHlo.nullary main_cst_0 (constant S_ .f32 0x40000000#32),
    StableHlo.unary main_cst_0 main_v9 (broadcastInDim S8192x8192 ![] bcast_S_S8192x8192 : (⟨S_, .f32⟩ : BufTy).Contents (Elt F) → (⟨S8192x8192, .f32⟩ : BufTy).Contents (Elt F)),
    StableHlo.binary main_v9 main_v8 main_v10 (mulf : (⟨S8192x8192, .f32⟩ : BufTy).Contents (Elt F) → (⟨S8192x8192, .f32⟩ : BufTy).Contents (Elt F) → (⟨S8192x8192, .f32⟩ : BufTy).Contents (Elt F)),
    StableHlo.binary main_v6 main_v10 main_v11 (subf : (⟨S8192x8192, .f32⟩ : BufTy).Contents (Elt F) → (⟨S8192x8192, .f32⟩ : BufTy).Contents (Elt F) → (⟨S8192x8192, .f32⟩ : BufTy).Contents (Elt F)),
    StableHlo.nullary main_cst_1 (constant S_ .f32 0x00000000#32),
    StableHlo.unary main_cst_1 main_v12 (broadcastInDim S8192x8192 ![] bcast_S_S8192x8192 : (⟨S_, .f32⟩ : BufTy).Contents (Elt F) → (⟨S8192x8192, .f32⟩ : BufTy).Contents (Elt F)),
    StableHlo.binary main_v11 main_v12 main_v13 (maximumf : (⟨S8192x8192, .f32⟩ : BufTy).Contents (Elt F) → (⟨S8192x8192, .f32⟩ : BufTy).Contents (Elt F) → (⟨S8192x8192, .f32⟩ : BufTy).Contents (Elt F)),
    StableHlo.unary main_v13 main_v14 (Host.sqrt : (⟨S8192x8192, .f32⟩ : BufTy).Contents (Elt F) → (⟨S8192x8192, .f32⟩ : BufTy).Contents (Elt F)),
    StableHlo.nullary main_v15 (iotaInDim S8192x8192 32 0),
    StableHlo.nullary main_v16 (iotaInDim S8192x8192 32 1),
    StableHlo.nullary main_c (constantI S_ 32 0#32),
    StableHlo.unary main_c main_v17 (broadcastInDim S8192x8192 ![] bcast_S_S8192x8192 : (⟨S_, .i32⟩ : BufTy).Contents (Elt F) → (⟨S8192x8192, .i32⟩ : BufTy).Contents (Elt F)),
    StableHlo.binary main_v15 main_v17 main_v18 (addi : (⟨S8192x8192, .i32⟩ : BufTy).Contents (Elt F) → (⟨S8192x8192, .i32⟩ : BufTy).Contents (Elt F) → (⟨S8192x8192, .i32⟩ : BufTy).Contents (Elt F)),
    StableHlo.binary main_v18 main_v16 main_v19 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v19 main_v20 (uitofp .f32 : (⟨S8192x8192, .i1⟩ : BufTy).Contents (Elt F) → (⟨S8192x8192, .f32⟩ : BufTy).Contents (Elt F)),
    StableHlo.nullary main_cst_2 (constant S_ .f32 0x40C00000#32),
    StableHlo.unary main_cst_2 main_v21 (broadcastInDim S8192x8192 ![] bcast_S_S8192x8192 : (⟨S_, .f32⟩ : BufTy).Contents (Elt F) → (⟨S8192x8192, .f32⟩ : BufTy).Contents (Elt F)),
    StableHlo.binary main_v21 main_v20 main_v22 (mulf : (⟨S8192x8192, .f32⟩ : BufTy).Contents (Elt F) → (⟨S8192x8192, .f32⟩ : BufTy).Contents (Elt F) → (⟨S8192x8192, .f32⟩ : BufTy).Contents (Elt F)),
    StableHlo.binary main_v14 main_v22 main_v23 (addf : (⟨S8192x8192, .f32⟩ : BufTy).Contents (Elt F) → (⟨S8192x8192, .f32⟩ : BufTy).Contents (Elt F) → (⟨S8192x8192, .f32⟩ : BufTy).Contents (Elt F)),
    StableHlo.nullary main_cst_3 (constant S_ .f32 0x40A00000#32),
    StableHlo.unary main_cst_3 main_v24 (broadcastInDim S8192x8192 ![] bcast_S_S8192x8192 : (⟨S_, .f32⟩ : BufTy).Contents (Elt F) → (⟨S8192x8192, .f32⟩ : BufTy).Contents (Elt F)),
    StableHlo.binary main_v23 main_v24 main_v25 (cmpf .olt : (⟨S8192x8192, .f32⟩ : BufTy).Contents (Elt F) → (⟨S8192x8192, .f32⟩ : BufTy).Contents (Elt F) → (⟨S8192x8192, .i1⟩ : BufTy).Contents (Elt F)) ]
/-- Each touches TensorCore references only. -/
theorem headOps_sub : (headOps : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩
/-- 5 host operations of @cumsum (main_call0), in order. -/
abbrev t1_1 : List (HloOp τ sig (Elt F)) :=
  [ StableHlo.TRef.reshape (.of main_v25 : StableHlo.TRef sig ⟨S8192x8192, .i1⟩) (.of main_call0_v0 : StableHlo.TRef sig ⟨S67108864, .i1⟩) rfl shapeCasts_S8192x8192_S67108864,
    StableHlo.TRef.unary (.of main_call0_v0 : StableHlo.TRef sig ⟨S67108864, .i1⟩) (.of main_call0_v1 : StableHlo.TRef sig ⟨S67108864, .i32⟩) (extui 32 · natLt_1_32),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_call0_v1 : StableHlo.TRef sig ⟨S67108864, .i32⟩) (.of main_call0_call0_v0 : StableHlo.TRef sig ⟨S_, .i32⟩) (.of main_v26 : StableHlo.TRef sig ⟨S67108864, .i32⟩) (fun x v => Host.reduceWindow IntOp.addi ![67108864] ![1] ![67108863] ![0] x v reduceWindows_S67108864_S67108864_w67108864s1p67108863_0 h_S_) ]
/-- Each touches TensorCore references only. -/
theorem t1_1_sub : (t1_1 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub ..⟩
/-- 3 host operations of @main, in order. -/
abbrev t1_2 : List (HloOp τ sig (Elt F)) :=
  [ StableHlo.nullary main_c_4 (constantI S_ 32 0#32),
    StableHlo.unary main_c_4 main_v27 (broadcastInDim S524288 ![] bcast_S_S524288 : (⟨S_, .i32⟩ : BufTy).Contents (Elt F) → (⟨S524288, .i32⟩ : BufTy).Contents (Elt F)),
    StableHlo.nullary main_c_5 (constantI S_ 32 0#32) ]
/-- Each touches TensorCore references only. -/
theorem t1_2_sub : (t1_2 : List (HloOp τ sig (Elt F))).Forall fun op => op.bufs ⊆ StableHlo.tcRefs τ sig :=
  ⟨StableHlo.nullary_bufs_sub .., StableHlo.unary_bufs_sub .., StableHlo.nullary_bufs_sub ..⟩
/-- 3 host operations of @clip (main_call1), in order. -/
abbrev t1_3 : List (HloOp τ sig (Elt F)) :=
  [ StableHlo.TRef.unary (.of main_c_5 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S67108864, .i32⟩) (broadcastInDim S67108864 ![] bcast_S_S67108864),
    StableHlo.TRef.binary (.of main_call1_v1 : StableHlo.TRef sig ⟨S67108864, .i32⟩) (.of main_v26 : StableHlo.TRef sig ⟨S67108864, .i32⟩) (.of main_v28 : StableHlo.TRef sig ⟨S67108864, .i32⟩) maxsi ]
/-- Each touches TensorCore references only. -/
theorem t1_3_sub : (t1_3 : List (HloOp τ sig (Elt F))).Forall fun op => op.bufs ⊆ StableHlo.tcRefs τ sig :=
  ⟨StableHlo.unary_bufs_sub .., StableHlo.unary_bufs_sub .., StableHlo.binary_bufs_sub ..⟩
/-- 11 host operations of @main, in order. -/
abbrev t1_4 : List (HloOp τ sig (Elt F)) :=
  [ StableHlo.nullary main_c_6 (constantI S_ 32 0#32),
    StableHlo.unary main_c_6 main_v29 (broadcastInDim S67108864 ![] bcast_S_S67108864 : (⟨S_, .i32⟩ : BufTy).Contents (Elt F) → (⟨S67108864, .i32⟩ : BufTy).Contents (Elt F)),
    StableHlo.binary main_v28 main_v29 main_v30 (cmpi .slt : (⟨S67108864, .i32⟩ : BufTy).Contents (Elt F) → (⟨S67108864, .i32⟩ : BufTy).Contents (Elt F) → (⟨S67108864, .i1⟩ : BufTy).Contents (Elt F)),
    StableHlo.nullary main_c_7 (constantI S_ 32 524288#32),
    StableHlo.unary main_c_7 main_v31 (broadcastInDim S67108864 ![] bcast_S_S67108864 : (⟨S_, .i32⟩ : BufTy).Contents (Elt F) → (⟨S67108864, .i32⟩ : BufTy).Contents (Elt F)),
    StableHlo.binary main_v28 main_v31 main_v32 (addi : (⟨S67108864, .i32⟩ : BufTy).Contents (Elt F) → (⟨S67108864, .i32⟩ : BufTy).Contents (Elt F) → (⟨S67108864, .i32⟩ : BufTy).Contents (Elt F)),
    StableHlo.ternary main_v30 main_v32 main_v28 main_v33 (select : (⟨S67108864, .i1⟩ : BufTy).Contents (Elt F) → (⟨S67108864, .i32⟩ : BufTy).Contents (Elt F) → (⟨S67108864, .i32⟩ : BufTy).Contents (Elt F) → (⟨S67108864, .i32⟩ : BufTy).Contents (Elt F)),
    StableHlo.unary main_v33 main_v34 (broadcastInDim S67108864x1 ![0] bcast_S67108864_S67108864x1_0 : (⟨S67108864, .i32⟩ : BufTy).Contents (Elt F) → (⟨S67108864x1, .i32⟩ : BufTy).Contents (Elt F)),
    StableHlo.nullary main_c_8 (constantI S_ 32 1#32),
    StableHlo.unary main_c_8 main_v35 (broadcastInDim S67108864 ![] bcast_S_S67108864 : (⟨S_, .i32⟩ : BufTy).Contents (Elt F) → (⟨S67108864, .i32⟩ : BufTy).Contents (Elt F)),
    StableHlo.ternary main_v27 main_v34 main_v35 main_v36 ((fun x i u => Host.scatter scatter_S524288_S67108864x1_S67108864_n_0_0_1 IntOp.addi x i u) : (⟨S524288, .i32⟩ : BufTy).Contents (Elt F) → (⟨S67108864x1, .i32⟩ : BufTy).Contents (Elt F) → (⟨S67108864, .i32⟩ : BufTy).Contents (Elt F) → (⟨S524288, .i32⟩ : BufTy).Contents (Elt F)) ]
/-- Each touches TensorCore references only. -/
theorem t1_4_sub : (t1_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
/-- 3 host operations of @cumsum_1 (main_call2), in order. -/
abbrev t1_5 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v36 : StableHlo.TRef sig ⟨S524288, .i32⟩) (.of main_call2_call0_v0 : StableHlo.TRef sig ⟨S_, .i32⟩) (.of main_v37 : StableHlo.TRef sig ⟨S524288, .i32⟩) (fun x v => Host.reduceWindow IntOp.addi ![524288] ![1] ![524287] ![0] x v reduceWindows_S524288_S524288_w524288s1p524287_0 h_S_) ]
/-- Each touches TensorCore references only. -/
theorem t1_5_sub : (t1_5 : List (HloOp τ sig (Elt F))).Forall fun op => op.bufs ⊆ StableHlo.tcRefs τ sig :=
  ⟨StableHlo.nullary_bufs_sub .., StableHlo.unary_bufs_sub .., StableHlo.binary_bufs_sub ..⟩
/-- 1 host operation of @main, in order. -/
abbrev t1_6 : List (HloOp τ sig (Elt F)) :=
  [ StableHlo.nullary main_c_9 (constantI S_ 32 8192#32) ]
/-- Each touches TensorCore references only. -/
theorem t1_6_sub : (t1_6 : List (HloOp τ sig (Elt F))).Forall fun op => op.bufs ⊆ StableHlo.tcRefs τ sig :=
  StableHlo.nullary_bufs_sub ..
/-- 16 host operations of @floor_divide (main_call3), in order. -/
abbrev t1_7 : List (HloOp τ sig (Elt F)) :=
  [ StableHlo.TRef.unary (.of main_c_9 : StableHlo.TRef sig ⟨S_, .i32⟩) (.of main_call3_v0 : StableHlo.TRef sig ⟨S524288, .i32⟩) (broadcastInDim S524288 ![] bcast_S_S524288),
    StableHlo.TRef.binary (.of main_v37 : StableHlo.TRef sig ⟨S524288, .i32⟩) (.of main_call3_v0 : StableHlo.TRef sig ⟨S524288, .i32⟩) (.of main_call3_v1 : StableHlo.TRef sig ⟨S524288, .i32⟩) Host.divsi,
    StableHlo.TRef.unary (.of main_v37 : StableHlo.TRef sig ⟨S524288, .i32⟩) (.of main_call3_v2 : StableHlo.TRef sig ⟨S524288, .i32⟩) signi,
    StableHlo.TRef.unary (.of main_c_9 : StableHlo.TRef sig ⟨S_, .i32⟩) (.of main_call3_v3 : StableHlo.TRef sig ⟨S_, .i32⟩) signi,
    StableHlo.TRef.unary (.of main_call3_v3 : StableHlo.TRef sig ⟨S_, .i32⟩) (.of main_call3_v4 : StableHlo.TRef sig ⟨S524288, .i32⟩) (broadcastInDim S524288 ![] bcast_S_S524288),
    StableHlo.TRef.binary (.of main_call3_v2 : StableHlo.TRef sig ⟨S524288, .i32⟩) (.of main_call3_v4 : StableHlo.TRef sig ⟨S524288, .i32⟩) (.of main_call3_v5 : StableHlo.TRef sig ⟨S524288, .i1⟩) (cmpi .ne),
    StableHlo.TRef.unary (.of main_c_9 : StableHlo.TRef sig ⟨S_, .i32⟩) (.of main_call3_v6 : StableHlo.TRef sig ⟨S524288, .i32⟩) (broadcastInDim S524288 ![] bcast_S_S524288),
    StableHlo.TRef.binary (.of main_v37 : StableHlo.TRef sig ⟨S524288, .i32⟩) (.of main_call3_v6 : StableHlo.TRef sig ⟨S524288, .i32⟩) (.of main_call3_v7 : StableHlo.TRef sig ⟨S524288, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v8 : StableHlo.TRef sig ⟨S524288, .i32⟩) (broadcastInDim S524288 ![] bcast_S_S524288),
    StableHlo.TRef.binary (.of main_call3_v7 : StableHlo.TRef sig ⟨S524288, .i32⟩) (.of main_call3_v8 : StableHlo.TRef sig ⟨S524288, .i32⟩) (.of main_call3_v9 : StableHlo.TRef sig ⟨S524288, .i1⟩) (cmpi .ne),
    StableHlo.TRef.binary (.of main_call3_v5 : StableHlo.TRef sig ⟨S524288, .i1⟩) (.of main_call3_v9 : StableHlo.TRef sig ⟨S524288, .i1⟩) (.of main_call3_v10 : StableHlo.TRef sig ⟨S524288, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v11 : StableHlo.TRef sig ⟨S524288, .i32⟩) (broadcastInDim S524288 ![] bcast_S_S524288),
    StableHlo.TRef.binary (.of main_call3_v1 : StableHlo.TRef sig ⟨S524288, .i32⟩) (.of main_call3_v11 : StableHlo.TRef sig ⟨S524288, .i32⟩) (.of main_call3_v12 : StableHlo.TRef sig ⟨S524288, .i32⟩) subi,
    StableHlo.TRef.ternary (.of main_call3_v10 : StableHlo.TRef sig ⟨S524288, .i1⟩) (.of main_call3_v12 : StableHlo.TRef sig ⟨S524288, .i32⟩) (.of main_call3_v1 : StableHlo.TRef sig ⟨S524288, .i32⟩) (.of main_v38 : StableHlo.TRef sig ⟨S524288, .i32⟩) select ]
/-- Each touches TensorCore references only. -/
theorem t1_7_sub : (t1_7 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 1 host operation of @main, in order. -/
abbrev t1_8 : List (HloOp τ sig (Elt F)) :=
  [ StableHlo.nullary main_c_10 (constantI S_ 32 8192#32) ]
/-- Each touches TensorCore references only. -/
theorem t1_8_sub : (t1_8 : List (HloOp τ sig (Elt F))).Forall fun op => op.bufs ⊆ StableHlo.tcRefs τ sig :=
  StableHlo.nullary_bufs_sub ..
/-- 21 host operations of @remainder (main_call4), in order. -/
abbrev t1_9 : List (HloOp τ sig (Elt F)) :=
  [ StableHlo.TRef.unary (.of main_c_10 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary (.of main_call4_v2 : StableHlo.TRef sig ⟨S_, .i32⟩) (.of main_call4_v3 : StableHlo.TRef sig ⟨S524288, .i32⟩) (broadcastInDim S524288 ![] bcast_S_S524288),
    StableHlo.TRef.binary (.of main_v38 : StableHlo.TRef sig ⟨S524288, .i32⟩) (.of main_call4_v3 : StableHlo.TRef sig ⟨S524288, .i32⟩) (.of main_call4_v4 : StableHlo.TRef sig ⟨S524288, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S524288, .i32⟩) (broadcastInDim S524288 ![] bcast_S_S524288),
    StableHlo.TRef.binary (.of main_call4_v4 : StableHlo.TRef sig ⟨S524288, .i32⟩) (.of main_call4_v5 : StableHlo.TRef sig ⟨S524288, .i32⟩) (.of main_call4_v6 : StableHlo.TRef sig ⟨S524288, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S524288, .i32⟩) (broadcastInDim S524288 ![] bcast_S_S524288),
    StableHlo.TRef.binary (.of main_call4_v4 : StableHlo.TRef sig ⟨S524288, .i32⟩) (.of main_call4_v7 : StableHlo.TRef sig ⟨S524288, .i32⟩) (.of main_call4_v8 : StableHlo.TRef sig ⟨S524288, .i1⟩) (cmpi .slt),
    StableHlo.TRef.nullary (.of main_call4_c_3 : StableHlo.TRef sig ⟨S_, .i32⟩) (constantI S_ 32 0#32),
    StableHlo.TRef.binary (.of main_call4_v2 : StableHlo.TRef sig ⟨S_, .i32⟩) (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S524288, .i1⟩) (broadcastInDim S524288 ![] bcast_S_S524288),
    StableHlo.TRef.binary (.of main_call4_v8 : StableHlo.TRef sig ⟨S524288, .i1⟩) (.of main_call4_v10 : StableHlo.TRef sig ⟨S524288, .i1⟩) (.of main_call4_v11 : StableHlo.TRef sig ⟨S524288, .i1⟩) (cmpi .ne),
    StableHlo.TRef.binary (.of main_call4_v11 : StableHlo.TRef sig ⟨S524288, .i1⟩) (.of main_call4_v6 : StableHlo.TRef sig ⟨S524288, .i1⟩) (.of main_call4_v12 : StableHlo.TRef sig ⟨S524288, .i1⟩) andi,
    StableHlo.TRef.unary (.of main_call4_v2 : StableHlo.TRef sig ⟨S_, .i32⟩) (.of main_call4_v13 : StableHlo.TRef sig ⟨S524288, .i32⟩) (broadcastInDim S524288 ![] bcast_S_S524288),
    StableHlo.TRef.binary (.of main_call4_v4 : StableHlo.TRef sig ⟨S524288, .i32⟩) (.of main_call4_v13 : StableHlo.TRef sig ⟨S524288, .i32⟩) (.of main_call4_v14 : StableHlo.TRef sig ⟨S524288, .i32⟩) addi,
    StableHlo.TRef.ternary (.of main_call4_v12 : StableHlo.TRef sig ⟨S524288, .i1⟩) (.of main_call4_v14 : StableHlo.TRef sig ⟨S524288, .i32⟩) (.of main_call4_v4 : StableHlo.TRef sig ⟨S524288, .i32⟩) (.of main_v39 : StableHlo.TRef sig ⟨S524288, .i32⟩) select ]
/-- Each touches TensorCore references only. -/
theorem t1_9_sub : (t1_9 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 1 host operation of @main, in order. -/
abbrev t1_10 : List (HloOp τ sig (Elt F)) :=
  [ StableHlo.nullary main_c_11 (constantI S_ 32 1#32) ]
/-- Each touches TensorCore references only. -/
theorem t1_10_sub : (t1_10 : List (HloOp τ sig (Elt F))).Forall fun op => op.bufs ⊆ StableHlo.tcRefs τ sig :=
  StableHlo.nullary_bufs_sub ..
/-- 16 host operations of @floor_divide (main_call5), in order. -/
abbrev t1_11 : List (HloOp τ sig (Elt F)) :=
  [ StableHlo.TRef.unary (.of main_c_11 : StableHlo.TRef sig ⟨S_, .i32⟩) (.of main_call5_v0 : StableHlo.TRef sig ⟨S524288, .i32⟩) (broadcastInDim S524288 ![] bcast_S_S524288),
    StableHlo.TRef.binary (.of main_v37 : StableHlo.TRef sig ⟨S524288, .i32⟩) (.of main_call5_v0 : StableHlo.TRef sig ⟨S524288, .i32⟩) (.of main_call5_v1 : StableHlo.TRef sig ⟨S524288, .i32⟩) Host.divsi,
    StableHlo.TRef.unary (.of main_v37 : StableHlo.TRef sig ⟨S524288, .i32⟩) (.of main_call5_v2 : StableHlo.TRef sig ⟨S524288, .i32⟩) signi,
    StableHlo.TRef.unary (.of main_c_11 : StableHlo.TRef sig ⟨S_, .i32⟩) (.of main_call5_v3 : StableHlo.TRef sig ⟨S_, .i32⟩) signi,
    StableHlo.TRef.unary (.of main_call5_v3 : StableHlo.TRef sig ⟨S_, .i32⟩) (.of main_call5_v4 : StableHlo.TRef sig ⟨S524288, .i32⟩) (broadcastInDim S524288 ![] bcast_S_S524288),
    StableHlo.TRef.binary (.of main_call5_v2 : StableHlo.TRef sig ⟨S524288, .i32⟩) (.of main_call5_v4 : StableHlo.TRef sig ⟨S524288, .i32⟩) (.of main_call5_v5 : StableHlo.TRef sig ⟨S524288, .i1⟩) (cmpi .ne),
    StableHlo.TRef.unary (.of main_c_11 : StableHlo.TRef sig ⟨S_, .i32⟩) (.of main_call5_v6 : StableHlo.TRef sig ⟨S524288, .i32⟩) (broadcastInDim S524288 ![] bcast_S_S524288),
    StableHlo.TRef.binary (.of main_v37 : StableHlo.TRef sig ⟨S524288, .i32⟩) (.of main_call5_v6 : StableHlo.TRef sig ⟨S524288, .i32⟩) (.of main_call5_v7 : StableHlo.TRef sig ⟨S524288, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v8 : StableHlo.TRef sig ⟨S524288, .i32⟩) (broadcastInDim S524288 ![] bcast_S_S524288),
    StableHlo.TRef.binary (.of main_call5_v7 : StableHlo.TRef sig ⟨S524288, .i32⟩) (.of main_call5_v8 : StableHlo.TRef sig ⟨S524288, .i32⟩) (.of main_call5_v9 : StableHlo.TRef sig ⟨S524288, .i1⟩) (cmpi .ne),
    StableHlo.TRef.binary (.of main_call5_v5 : StableHlo.TRef sig ⟨S524288, .i1⟩) (.of main_call5_v9 : StableHlo.TRef sig ⟨S524288, .i1⟩) (.of main_call5_v10 : StableHlo.TRef sig ⟨S524288, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v11 : StableHlo.TRef sig ⟨S524288, .i32⟩) (broadcastInDim S524288 ![] bcast_S_S524288),
    StableHlo.TRef.binary (.of main_call5_v1 : StableHlo.TRef sig ⟨S524288, .i32⟩) (.of main_call5_v11 : StableHlo.TRef sig ⟨S524288, .i32⟩) (.of main_call5_v12 : StableHlo.TRef sig ⟨S524288, .i32⟩) subi,
    StableHlo.TRef.ternary (.of main_call5_v10 : StableHlo.TRef sig ⟨S524288, .i1⟩) (.of main_call5_v12 : StableHlo.TRef sig ⟨S524288, .i32⟩) (.of main_call5_v1 : StableHlo.TRef sig ⟨S524288, .i32⟩) (.of main_v40 : StableHlo.TRef sig ⟨S524288, .i32⟩) select ]
/-- Each touches TensorCore references only. -/
theorem t1_11_sub : (t1_11 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 1 host operation of @main, in order. -/
abbrev t1_12 : List (HloOp τ sig (Elt F)) :=
  [ StableHlo.nullary main_c_12 (constantI S_ 32 8192#32) ]
/-- Each touches TensorCore references only. -/
theorem t1_12_sub : (t1_12 : List (HloOp τ sig (Elt F))).Forall fun op => op.bufs ⊆ StableHlo.tcRefs τ sig :=
  StableHlo.nullary_bufs_sub ..
/-- 21 host operations of @remainder (main_call6), in order. -/
abbrev t1_13 : List (HloOp τ sig (Elt F)) :=
  [ StableHlo.TRef.unary (.of main_c_12 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary (.of main_call6_v2 : StableHlo.TRef sig ⟨S_, .i32⟩) (.of main_call6_v3 : StableHlo.TRef sig ⟨S524288, .i32⟩) (broadcastInDim S524288 ![] bcast_S_S524288),
    StableHlo.TRef.binary (.of main_v40 : StableHlo.TRef sig ⟨S524288, .i32⟩) (.of main_call6_v3 : StableHlo.TRef sig ⟨S524288, .i32⟩) (.of main_call6_v4 : StableHlo.TRef sig ⟨S524288, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S524288, .i32⟩) (broadcastInDim S524288 ![] bcast_S_S524288),
    StableHlo.TRef.binary (.of main_call6_v4 : StableHlo.TRef sig ⟨S524288, .i32⟩) (.of main_call6_v5 : StableHlo.TRef sig ⟨S524288, .i32⟩) (.of main_call6_v6 : StableHlo.TRef sig ⟨S524288, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S524288, .i32⟩) (broadcastInDim S524288 ![] bcast_S_S524288),
    StableHlo.TRef.binary (.of main_call6_v4 : StableHlo.TRef sig ⟨S524288, .i32⟩) (.of main_call6_v7 : StableHlo.TRef sig ⟨S524288, .i32⟩) (.of main_call6_v8 : StableHlo.TRef sig ⟨S524288, .i1⟩) (cmpi .slt),
    StableHlo.TRef.nullary (.of main_call6_c_3 : StableHlo.TRef sig ⟨S_, .i32⟩) (constantI S_ 32 0#32),
    StableHlo.TRef.binary (.of main_call6_v2 : StableHlo.TRef sig ⟨S_, .i32⟩) (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S524288, .i1⟩) (broadcastInDim S524288 ![] bcast_S_S524288),
    StableHlo.TRef.binary (.of main_call6_v8 : StableHlo.TRef sig ⟨S524288, .i1⟩) (.of main_call6_v10 : StableHlo.TRef sig ⟨S524288, .i1⟩) (.of main_call6_v11 : StableHlo.TRef sig ⟨S524288, .i1⟩) (cmpi .ne),
    StableHlo.TRef.binary (.of main_call6_v11 : StableHlo.TRef sig ⟨S524288, .i1⟩) (.of main_call6_v6 : StableHlo.TRef sig ⟨S524288, .i1⟩) (.of main_call6_v12 : StableHlo.TRef sig ⟨S524288, .i1⟩) andi,
    StableHlo.TRef.unary (.of main_call6_v2 : StableHlo.TRef sig ⟨S_, .i32⟩) (.of main_call6_v13 : StableHlo.TRef sig ⟨S524288, .i32⟩) (broadcastInDim S524288 ![] bcast_S_S524288),
    StableHlo.TRef.binary (.of main_call6_v4 : StableHlo.TRef sig ⟨S524288, .i32⟩) (.of main_call6_v13 : StableHlo.TRef sig ⟨S524288, .i32⟩) (.of main_call6_v14 : StableHlo.TRef sig ⟨S524288, .i32⟩) addi,
    StableHlo.TRef.ternary (.of main_call6_v12 : StableHlo.TRef sig ⟨S524288, .i1⟩) (.of main_call6_v14 : StableHlo.TRef sig ⟨S524288, .i32⟩) (.of main_call6_v4 : StableHlo.TRef sig ⟨S524288, .i32⟩) (.of main_v41 : StableHlo.TRef sig ⟨S524288, .i32⟩) select ]
/-- Each touches TensorCore references only. -/
theorem t1_13_sub : (t1_13 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 7 host operations of @main, in order. -/
abbrev t1_14 : List (HloOp τ sig (Elt F)) :=
  [ StableHlo.nullary main_v42 (iotaInDim S524288 32 0),
    StableHlo.unary main_v25 main_v43 ((extui 32 · natLt_1_32) : (⟨S8192x8192, .i1⟩ : BufTy).Contents (Elt F) → (⟨S8192x8192, .i32⟩ : BufTy).Contents (Elt F)),
    StableHlo.nullary main_c_13 (constantI S_ 32 0#32),
    StableHlo.binary main_v43 main_c_13 main_v44 ((fun x v => Host.reduce IntOp.addi x v reducesTo_S8192x8192_S_d0_1 h_S_) : (⟨S8192x8192, .i32⟩ : BufTy).Contents (Elt F) → (⟨S_, .i32⟩ : BufTy).Contents (Elt F) → (⟨S_, .i32⟩ : BufTy).Contents (Elt F)),
    StableHlo.unary main_v44 main_v45 (broadcastInDim S524288 ![] bcast_S_S524288 : (⟨S_, .i32⟩ : BufTy).Contents (Elt F) → (⟨S524288, .i32⟩ : BufTy).Contents (Elt F)),
    StableHlo.binary main_v42 main_v45 main_v46 (cmpi .sge : (⟨S524288, .i32⟩ : BufTy).Contents (Elt F) → (⟨S524288, .i32⟩ : BufTy).Contents (Elt F) → (⟨S524288, .i1⟩ : BufTy).Contents (Elt F)),
    StableHlo.nullary main_c_14 (constantI S_ 32 4294967295#32) ]
/-- Each touches TensorCore references only. -/
theorem t1_14_sub : (t1_14 : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.unary_bufs_sub .., StableHlo.binary_bufs_sub .., StableHlo.nullary_bufs_sub ..⟩
/-- 3 host operations of @_where_4 (main_call7), in order. -/
abbrev t1_15 : List (HloOp τ sig (Elt F)) :=
  [ StableHlo.TRef.unary (.of main_c_14 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S524288, .i32⟩) (broadcastInDim S524288 ![] bcast_S_S524288),
    StableHlo.TRef.ternary (.of main_v46 : StableHlo.TRef sig ⟨S524288, .i1⟩) (.of main_call7_v1 : StableHlo.TRef sig ⟨S524288, .i32⟩) (.of main_v39 : StableHlo.TRef sig ⟨S524288, .i32⟩) (.of main_v47 : StableHlo.TRef sig ⟨S524288, .i32⟩) select ]
/-- Each touches TensorCore references only. -/
theorem t1_15_sub : (t1_15 : List (HloOp τ sig (Elt F))).Forall fun op => op.bufs ⊆ StableHlo.tcRefs τ sig :=
  ⟨StableHlo.unary_bufs_sub .., StableHlo.unary_bufs_sub .., StableHlo.ternary_bufs_sub ..⟩
/-- 1 host operation of @main, in order. -/
abbrev t1_16 : List (HloOp τ sig (Elt F)) :=
  [ StableHlo.nullary main_c_15 (constantI S_ 32 4294967295#32) ]
/-- Each touches TensorCore references only. -/
theorem t1_16_sub : (t1_16 : List (HloOp τ sig (Elt F))).Forall fun op => op.bufs ⊆ StableHlo.tcRefs τ sig :=
  StableHlo.nullary_bufs_sub ..
/-- 3 host operations of @_where_4 (main_call8), in order. -/
abbrev t1_17 : List (HloOp τ sig (Elt F)) :=
  [ StableHlo.TRef.unary (.of main_c_15 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S524288, .i32⟩) (broadcastInDim S524288 ![] bcast_S_S524288),
    StableHlo.TRef.ternary (.of main_v46 : StableHlo.TRef sig ⟨S524288, .i1⟩) (.of main_call8_v1 : StableHlo.TRef sig ⟨S524288, .i32⟩) (.of main_v41 : StableHlo.TRef sig ⟨S524288, .i32⟩) (.of main_v48 : StableHlo.TRef sig ⟨S524288, .i32⟩) select ]
/-- Each touches TensorCore references only. -/
theorem t1_17_sub : (t1_17 : List (HloOp τ sig (Elt F))).Forall fun op => op.bufs ⊆ StableHlo.tcRefs τ sig :=
  ⟨StableHlo.unary_bufs_sub .., StableHlo.unary_bufs_sub .., StableHlo.ternary_bufs_sub ..⟩
/-- 3 host operations of @main, in order. -/
abbrev t1_18 : List (HloOp τ sig (Elt F)) :=
  [ StableHlo.unary main_v47 main_v49 (broadcastInDim S1x524288 ![1] bcast_S524288_S1x524288_1 : (⟨S524288, .i32⟩ : BufTy).Contents (Elt F) → (⟨S1x524288, .i32⟩ : BufTy).Contents (Elt F)),
    StableHlo.unary main_v48 main_v50 (broadcastInDim S1x524288 ![1] bcast_S524288_S1x524288_1 : (⟨S524288, .i32⟩ : BufTy).Contents (Elt F) → (⟨S1x524288, .i32⟩ : BufTy).Contents (Elt F)),
    StableHlo.binary main_v49 main_v50 main_v51 ((fun a b => concatenate S2x524288 0 [⟨S1x524288, a⟩, ⟨S1x524288, b⟩] concatenates_S1x524288_S1x524288_S2x524288_d0) : (⟨S1x524288, .i32⟩ : BufTy).Contents (Elt F) → (⟨S1x524288, .i32⟩ : BufTy).Contents (Elt F) → (⟨S2x524288, .i32⟩ : BufTy).Contents (Elt F)) ]
/-- Each touches TensorCore references only. -/
theorem t1_18_sub : (t1_18 : List (HloOp τ sig (Elt F))).Forall fun op => op.bufs ⊆ StableHlo.tcRefs τ sig :=
  ⟨StableHlo.unary_bufs_sub .., StableHlo.unary_bufs_sub .., StableHlo.binary_bufs_sub ..⟩

/-- The whole entry function, in program order. -/
abbrev ops : List (HloOp τ sig (Elt F)) :=
  List.flatten [headOps, t1_1, t1_2, t1_3, t1_4, t1_5, t1_6, t1_7, t1_8, t1_9, t1_10, t1_11, t1_12, t1_13, t1_14, t1_15, t1_16, t1_17, t1_18]

end Cert.ReferenceIdeal.RefOps

end
-- ==== Proof.RefRun.lean ====
/-
  The reference program's entry function IS the straight line of its host operations, and its run: every weakly
  fair execution ends with each buffer at the fold of those operations over the launch contents.
-/
import proofs.«166916_j89352499626116_1_alg».proof.Proof.RefOps
import Idealize.ShloMosaic.Lib.Pipeline.Regions

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- The entry function is its stretches run one after the other. -/
theorem main_chain (c : Dev nD) : main (F := F) c = (Pipeline.chain
  [ StableHlo.seq headOps, StableHlo.seq t1_1, StableHlo.seq t1_2, StableHlo.seq t1_3, StableHlo.seq t1_4,
    StableHlo.seq t1_5, StableHlo.seq t1_6, StableHlo.seq t1_7, StableHlo.seq t1_8, StableHlo.seq t1_9,
    StableHlo.seq t1_10, StableHlo.seq t1_11, StableHlo.seq t1_12, StableHlo.seq t1_13, StableHlo.seq t1_14,
    StableHlo.seq t1_15, StableHlo.seq t1_16, StableHlo.seq t1_17, StableHlo.seq t1_18 ] :
    Prog (TpuEff nD τ sig (Elt F) (Pipeline.Sig Λ₀ (Fin 0) fun p => (pcfgs (F := F) p).Adm) .tc) PUnit) := by
  chain_rfl

/-- Stretches run one after the other are their concatenation run as one line. -/
theorem chain_seq {Λ : Labels} (ls : List (List (HloOp τ sig (Elt F)))) :
    (Pipeline.chain (ls.map StableHlo.seq) : Prog (TpuEff nD τ sig (Elt F) Λ .tc) PUnit) = StableHlo.seq ls.flatten := by
  induction ls with
  | nil => rfl
  | cons l ls ih => simp only [List.map_cons, Pipeline.chain_cons, List.flatten_cons, StableHlo.seq_append, ih]

/-- The entry function is the one line of all its operations. -/
theorem main_eq (c : Dev nD) : main (F := F) c = StableHlo.seq ops :=
  (main_chain c).trans (chain_seq [headOps, t1_1, t1_2, t1_3, t1_4, t1_5, t1_6, t1_7, t1_8, t1_9, t1_10, t1_11, t1_12, t1_13, t1_14, t1_15, t1_16, t1_17, t1_18])

theorem scopedRefs_eq : (Finset.univ.filter fun b : Ref sig .tc => b.isScoped) = ∅ := by decide
theorem scopedSems_eq : (Finset.univ.filter fun sm : SemLoc sig => sm.isScoped .tc) = ∅ := by decide

/-- A property of every operation of every stretch holds of every operation of their concatenation. -/
theorem forall_flatten {α : Type} (p : α → Prop) (ls : List (List α)) (h : ∀ l ∈ ls, l.Forall p) : ls.flatten.Forall p := by
  rw [List.forall_iff_forall_mem]
  intro x hx
  obtain ⟨l, hl, hxl⟩ := List.mem_flatten.mp hx
  exact List.forall_iff_forall_mem.mp (h l hl) x hxl

/-- Every operation touches TensorCore references only. -/
theorem ops_sub : (ops : List (HloOp τ sig (Elt F))).Forall fun op => op.bufs ⊆ StableHlo.tcRefs τ sig := by
  refine forall_flatten _ _ fun l hl => ?_
  simp only [List.mem_cons, List.not_mem_nil, or_false] at hl
  rcases hl with rfl | rfl | rfl | rfl | rfl | rfl | rfl | rfl | rfl | rfl | rfl | rfl | rfl | rfl | rfl | rfl | rfl | rfl | rfl
  exacts [headOps_sub, t1_1_sub, t1_2_sub, t1_3_sub, t1_4_sub, t1_5_sub, t1_6_sub, t1_7_sub, t1_8_sub, t1_9_sub, t1_10_sub, t1_11_sub, t1_12_sub, t1_13_sub, t1_14_sub, t1_15_sub, t1_16_sub, t1_17_sub, t1_18_sub]

/-- Every operation determines its results. -/
theorem ops_fresh : ∀ op ∈ (ops : List (HloOp τ sig (Elt F))), op.fresh = ∅ := by
  intro op hop
  obtain ⟨l, hl, h⟩ := List.mem_flatten.mp hop
  simp only [List.mem_cons, List.not_mem_nil, or_false] at hl
  rcases hl with rfl | rfl | rfl | rfl | rfl | rfl | rfl | rfl | rfl | rfl | rfl | rfl | rfl | rfl | rfl | rfl | rfl | rfl | rfl <;>
    ((repeat (cases h with | head => rfl | tail _ h => ?_)); exact nomatch h)

/-- From any memory with zero counters, every weakly fair execution of the entry function terminates, and every final
    state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (b : DevRef τ sig) :=
  StableHlo.run_seq scopedRefs_eq scopedSems_eq defs main (fun _ => ops) main_eq (fun _ => ops_sub) m ρ
    (fun _ => ops_fresh)

end Cert.ReferenceIdeal.RefOps

end
-- ==== Proof.RefHead.lean ====
/-
  The first 32 operations of the reference program compute the mask of close pairs from the points and touch the
  points' array no more; the operations after them do not write it either.
-/
import proofs.«166916_j89352499626116_1_alg».proof.Proof.RefOps

noncomputable section

namespace Cert.ReferenceIdeal.RefOps

open Cert.ReferenceIdeal Cert.ReferenceIdeal.Gen Idealize.ShloMosaic Idealize.ShloMosaic.TcCoe Idealize.SL.Sem
open Idealize.ShloMosaic.StableHlo

variable {F : FTy → Type} [FloatOps F]

attribute [local irreducible] Host.reduceAdd Host.sqrt transpose iotaInDim broadcastInDim in
set_option maxRecDepth 8192 in
set_option maxHeartbeats 1000000 in
/-- After the first 32 operations the mask's buffer holds the reference's mask of the points as launched. -/
theorem head_mask (V : Valuation τ sig (Elt F)) :
    after headOps V (main_v25 : DevRef τ sig) = RSpec.refMask (F := F) (V (main_arg0 : DevRef τ sig)) := by
  simp only [after_cons, after_nil]
  rfl

/-- The first 32 operations do not write the points' array. -/
theorem head_arg0 (V : Valuation τ sig (Elt F)) :
    after headOps V (main_arg0 : DevRef τ sig) = V (main_arg0 : DevRef τ sig) :=
  after_of_forall_not_mem (b := Proc.devRef .tc main_arg0) _ _ (List.forall_iff_forall_mem.mp (by
    simp only [headOps, List.Forall, nullary_writes, unary_writes, binary_writes, ternary_writes, quaternary_writes,
      reshape_writes, binaryIndexed_writes, Finset.mem_singleton]
    repeat' apply And.intro
    all_goals exact devRef_ne_of_ne (by decide)))

/-- Nor do the operations after them. -/
theorem tail_arg0 (V : Valuation τ sig (Elt F)) :
    after (List.flatten [t1_1, t1_2, t1_3, t1_4, t1_5, t1_6, t1_7, t1_8, t1_9, t1_10, t1_11, t1_12, t1_13, t1_14, t1_15, t1_16, t1_17, t1_18]) V (main_arg0 : DevRef τ sig)
      = V (main_arg0 : DevRef τ sig) :=
  after_of_forall_not_mem (b := Proc.devRef .tc main_arg0) _ _ (List.forall_iff_forall_mem.mp (by
    simp only [t1_1, t1_2, t1_3, t1_4, t1_5, t1_6, t1_7, t1_8, t1_9, t1_10, t1_11, t1_12, t1_13, t1_14, t1_15, t1_16, t1_17, t1_18,
      List.flatten_cons, List.flatten_nil, List.append_nil, List.cons_append, List.nil_append, List.Forall,
      nullary_writes, unary_writes, binary_writes, ternary_writes, quaternary_writes, reshape_writes,
      binaryIndexed_writes, Finset.mem_singleton]
    repeat' apply And.intro
    all_goals exact devRef_ne_of_ne (by decide)))

end Cert.ReferenceIdeal.RefOps

end
-- ==== Proof.RefTail.lean ====
/-
  What the reference's host operations after its mask leave behind.  From the mask they count the set entries along
  the flattened mask, scatter a histogram of the counts, count again to get the flat position of each set entry, split
  each position into row and column, and pad with -1: the compaction the kernel's program applies to its own mask.
  The operations are cut into ten consecutive chunks; for each chunk and ANY incoming contents, what it leaves at the
  buffers later chunks read is computed, and the chunks are then composed (running a list is a left fold).
-/
import proofs.«166916_j89352499626116_1_alg».proof.Proof.Spec
import proofs.«166916_j89352499626116_1_alg».proof.Proof.RefOps
import Idealize.ShloMosaic.Lib.StableHlo.Run

set_option maxRecDepth 8192

noncomputable section

namespace Cert.ReferenceIdeal.RefTail

open Idealize.ShloMosaic Idealize.ShloMosaic.TcCoe Idealize.ShloMosaic.StableHlo Cert.ReferenceIdeal Cert.ReferenceIdeal.Gen Cert.ReferenceIdeal.RefOps

variable {F : FTy → Type} [FloatOps F]

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The ten chunks. -/
def D1 : List (HloOp τ sig (Elt F)) := t1_1
def D2 : List (HloOp τ sig (Elt F)) := t1_2 ++ (t1_3 ++ (t1_4))
def D3 : List (HloOp τ sig (Elt F)) := t1_5
def D4 : List (HloOp τ sig (Elt F)) := t1_6 ++ (t1_7)
def D5 : List (HloOp τ sig (Elt F)) := t1_8 ++ (t1_9)
def D6 : List (HloOp τ sig (Elt F)) := t1_10 ++ (t1_11)
def D7 : List (HloOp τ sig (Elt F)) := t1_12 ++ (t1_13)
def D8 : List (HloOp τ sig (Elt F)) := t1_14 ++ (t1_15)
def D9 : List (HloOp τ sig (Elt F)) := t1_16 ++ (t1_17)
def D10 : List (HloOp τ sig (Elt F)) := t1_18

section
variable (V : Valuation τ sig (Elt F))

/-! ### Chunk 1: the running count of the mask -/

attribute [local irreducible] Host.reduceWindow Host.reduce Host.scatter in
set_option maxHeartbeats 400000 in
theorem d1_count : after (D1 (F := F)) V (main_v26 : DevRef τ sig)
    = Cert.KernelIdeal.Spec.runningCount (V (main_v25 : DevRef τ sig)) := by
  simp only [D1, t1_1]
  after_results_simp
  try rfl

theorem d1_keep25 : after (D1 (F := F)) V (main_v25 : DevRef τ sig) = V (main_v25 : DevRef τ sig) := by
  simp only [D1, t1_1]
  after_results_simp

/-! ### Chunk 2: the histogram of the clipped counts -/

attribute [local irreducible] Host.reduceWindow Host.reduce Host.scatter in
set_option maxHeartbeats 400000 in
theorem d2_hist : after (D2 (F := F)) V (main_v36 : DevRef τ sig)
    = Host.scatter Cert.KernelIdeal.scatter_S524288_S67108864x1_S67108864_n_0_0_1 IntOp.addi
        (broadcastInDim Cert.KernelIdeal.S524288 ![] Cert.KernelIdeal.Gen.bcast_S_S524288 (constantI Cert.KernelIdeal.S_ 32 0#32))
        (Cert.KernelIdeal.Spec.bucket (V (main_v26 : DevRef τ sig)))
        (broadcastInDim Cert.KernelIdeal.S67108864 ![] Cert.KernelIdeal.Gen.bcast_S_S67108864 (constantI Cert.KernelIdeal.S_ 32 1#32)) := by
  simp only [D2, t1_2, t1_3, t1_4, List.cons_append, List.nil_append]
  after_results_simp
  try rfl

theorem d2_keep25 : after (D2 (F := F)) V (main_v25 : DevRef τ sig) = V (main_v25 : DevRef τ sig) := by
  simp only [D2, t1_2, t1_3, t1_4, List.cons_append, List.nil_append]
  after_results_simp

/-! ### Chunk 3: the positions -/

attribute [local irreducible] Host.reduceWindow Host.reduce Host.scatter in
set_option maxHeartbeats 400000 in
theorem d3_pos : after (D3 (F := F)) V (main_v37 : DevRef τ sig)
    = Host.reduceWindow IntOp.addi ![524288] ![1] ![524287] ![0] (V (main_v36 : DevRef τ sig))
        (broadcastInDim Cert.KernelIdeal.S_ ![] Cert.KernelIdeal.Gen.bcast_S_S_ (constantI Cert.KernelIdeal.S_ 32 0#32))
        Cert.KernelIdeal.Gen.reduceWindows_S524288_S524288_w524288s1p524287_0 Cert.KernelIdeal.Gen.h_S_ := by
  simp only [D3, t1_5]
  after_results_simp
  try rfl

theorem d3_keep25 : after (D3 (F := F)) V (main_v25 : DevRef τ sig) = V (main_v25 : DevRef τ sig) := by
  simp only [D3, t1_5]
  after_results_simp

/-! ### Chunks 4 to 7: rows and columns -/

attribute [local irreducible] Host.reduceWindow Host.reduce Host.scatter in
set_option maxHeartbeats 400000 in
theorem d4_div : after (D4 (F := F)) V (main_v38 : DevRef τ sig)
    = Cert.KernelIdeal.Spec.floorDiv (V (main_v37 : DevRef τ sig)) (constantI Cert.KernelIdeal.S_ 32 8192#32) := by
  simp only [D4, t1_6, t1_7, List.cons_append, List.nil_append]
  after_results_simp
  try rfl
theorem d4_keep37 : after (D4 (F := F)) V (main_v37 : DevRef τ sig) = V (main_v37 : DevRef τ sig) := by
  simp only [D4, t1_6, t1_7, List.cons_append, List.nil_append]
  after_results_simp
theorem d4_keep25 : after (D4 (F := F)) V (main_v25 : DevRef τ sig) = V (main_v25 : DevRef τ sig) := by
  simp only [D4, t1_6, t1_7, List.cons_append, List.nil_append]
  after_results_simp

attribute [local irreducible] Host.reduceWindow Host.reduce Host.scatter in
set_option maxHeartbeats 400000 in
theorem d5_mod : after (D5 (F := F)) V (main_v39 : DevRef τ sig)
    = Cert.KernelIdeal.Spec.floorMod (V (main_v38 : DevRef τ sig)) (constantI Cert.KernelIdeal.S_ 32 8192#32) := by
  simp only [D5, t1_8, t1_9, List.cons_append, List.nil_append]
  after_results_simp
  try rfl
theorem d5_keep37 : after (D5 (F := F)) V (main_v37 : DevRef τ sig) = V (main_v37 : DevRef τ sig) := by
  simp only [D5, t1_8, t1_9, List.cons_append, List.nil_append]
  after_results_simp
theorem d5_keep25 : after (D5 (F := F)) V (main_v25 : DevRef τ sig) = V (main_v25 : DevRef τ sig) := by
  simp only [D5, t1_8, t1_9, List.cons_append, List.nil_append]
  after_results_simp

attribute [local irreducible] Host.reduceWindow Host.reduce Host.scatter in
set_option maxHeartbeats 400000 in
theorem d6_div : after (D6 (F := F)) V (main_v40 : DevRef τ sig)
    = Cert.KernelIdeal.Spec.floorDiv (V (main_v37 : DevRef τ sig)) (constantI Cert.KernelIdeal.S_ 32 1#32) := by
  simp only [D6, t1_10, t1_11, List.cons_append, List.nil_append]
  after_results_simp
  try rfl
theorem d6_keep39 : after (D6 (F := F)) V (main_v39 : DevRef τ sig) = V (main_v39 : DevRef τ sig) := by
  simp only [D6, t1_10, t1_11, List.cons_append, List.nil_append]
  after_results_simp
theorem d6_keep25 : after (D6 (F := F)) V (main_v25 : DevRef τ sig) = V (main_v25 : DevRef τ sig) := by
  simp only [D6, t1_10, t1_11, List.cons_append, List.nil_append]
  after_results_simp

attribute [local irreducible] Host.reduceWindow Host.reduce Host.scatter in
set_option maxHeartbeats 400000 in
theorem d7_mod : after (D7 (F := F)) V (main_v41 : DevRef τ sig)
    = Cert.KernelIdeal.Spec.floorMod (V (main_v40 : DevRef τ sig)) (constantI Cert.KernelIdeal.S_ 32 8192#32) := by
  simp only [D7, t1_12, t1_13, List.cons_append, List.nil_append]
  after_results_simp
  try rfl
theorem d7_keep39 : after (D7 (F := F)) V (main_v39 : DevRef τ sig) = V (main_v39 : DevRef τ sig) := by
  simp only [D7, t1_12, t1_13, List.cons_append, List.nil_append]
  after_results_simp
theorem d7_keep25 : after (D7 (F := F)) V (main_v25 : DevRef τ sig) = V (main_v25 : DevRef τ sig) := by
  simp only [D7, t1_12, t1_13, List.cons_append, List.nil_append]
  after_results_simp

/-! ### Chunks 8 to 10: padding and stacking -/

attribute [local irreducible] Host.reduceWindow Host.reduce Host.scatter in
set_option maxHeartbeats 400000 in
theorem d8_flag : after (D8 (F := F)) V (main_v46 : DevRef τ sig)
    = Cert.KernelIdeal.Spec.padFlag (V (main_v25 : DevRef τ sig)) := by
  simp only [D8, t1_14, t1_15, List.cons_append, List.nil_append]
  after_results_simp
  try rfl
attribute [local irreducible] Host.reduceWindow Host.reduce Host.scatter in
set_option maxHeartbeats 400000 in
theorem d8_rows : after (D8 (F := F)) V (main_v47 : DevRef τ sig)
    = Cert.KernelIdeal.Spec.padded (Cert.KernelIdeal.Spec.padFlag (V (main_v25 : DevRef τ sig))) (V (main_v39 : DevRef τ sig)) := by
  simp only [D8, t1_14, t1_15, List.cons_append, List.nil_append]
  after_results_simp
  try rfl
theorem d8_keep41 : after (D8 (F := F)) V (main_v41 : DevRef τ sig) = V (main_v41 : DevRef τ sig) := by
  simp only [D8, t1_14, t1_15, List.cons_append, List.nil_append]
  after_results_simp

attribute [local irreducible] Host.reduceWindow Host.reduce Host.scatter in
set_option maxHeartbeats 400000 in
theorem d9_cols : after (D9 (F := F)) V (main_v48 : DevRef τ sig)
    = Cert.KernelIdeal.Spec.padded (V (main_v46 : DevRef τ sig)) (V (main_v41 : DevRef τ sig)) := by
  simp only [D9, t1_16, t1_17, List.cons_append, List.nil_append]
  after_results_simp
  try rfl
theorem d9_keep47 : after (D9 (F := F)) V (main_v47 : DevRef τ sig) = V (main_v47 : DevRef τ sig) := by
  simp only [D9, t1_16, t1_17, List.cons_append, List.nil_append]
  after_results_simp

attribute [local irreducible] Host.reduceWindow Host.reduce Host.scatter in
set_option maxHeartbeats 400000 in
theorem d10_stack : after (D10 (F := F)) V (main_v51 : DevRef τ sig)
    = concatenate Cert.KernelIdeal.S2x524288 0
        [⟨Cert.KernelIdeal.S1x524288, broadcastInDim Cert.KernelIdeal.S1x524288 ![1] Cert.KernelIdeal.Gen.bcast_S524288_S1x524288_1 (V (main_v47 : DevRef τ sig))⟩,
         ⟨Cert.KernelIdeal.S1x524288, broadcastInDim Cert.KernelIdeal.S1x524288 ![1] Cert.KernelIdeal.Gen.bcast_S524288_S1x524288_1 (V (main_v48 : DevRef τ sig))⟩]
        Cert.KernelIdeal.Gen.concatenates_S1x524288_S1x524288_S2x524288_d0 := by
  simp only [D10, t1_18]
  after_results_simp
  try rfl

end

/-! ### The chunks composed -/

/-- The operations after the mask are the ten chunks in order. -/
theorem tail_eq : (List.flatten [t1_1, t1_2, t1_3, t1_4, t1_5, t1_6, t1_7, t1_8, t1_9, t1_10, t1_11, t1_12, t1_13, t1_14, t1_15, t1_16, t1_17, t1_18] : List (HloOp τ sig (Elt F)))
    = D1 ++ (D2 ++ (D3 ++ (D4 ++ (D5 ++ (D6 ++ (D7 ++ (D8 ++ (D9 ++ D10)))))))) := rfl

attribute [local irreducible] Host.reduceWindow Host.reduce Host.scatter in
set_option maxHeartbeats 400000 in
/-- The result buffer ends at the compaction of the mask held at the mask's buffer. -/
theorem tail_result (V : Valuation τ sig (Elt F)) :
    StableHlo.after (List.flatten [t1_1, t1_2, t1_3, t1_4, t1_5, t1_6, t1_7, t1_8, t1_9, t1_10, t1_11, t1_12, t1_13, t1_14, t1_15, t1_16, t1_17, t1_18] : List (HloOp τ sig (Elt F))) V (main_v51 : DevRef τ sig)
      = Cert.KernelIdeal.Spec.tail (V (main_v25 : DevRef τ sig)) := by
  rw [tail_eq]
  simp only [after_append]
  rw [d10_stack, d9_cols, d9_keep47, d8_rows, d8_flag, d8_keep41, d7_mod, d7_keep39, d7_keep25, d6_div, d6_keep39, d6_keep25,
    d5_mod, d5_keep37, d5_keep25, d4_div, d4_keep37, d4_keep25, d3_pos, d3_keep25, d2_hist, d2_keep25, d1_count, d1_keep25]
  rfl

end Cert.ReferenceIdeal.RefTail

end
-- ==== Proof.RefFinal.lean ====
/-
  The reference's run read back: the mask from the points (the first stretch of its operations), then the listing
  of the mask's set entries (the rest); the points are written by no operation.
-/
import proofs.«166916_j89352499626116_1_alg».proof.Proof.RefRun
import proofs.«166916_j89352499626116_1_alg».proof.Proof.RefHead
import proofs.«166916_j89352499626116_1_alg».proof.Proof.RefTail

noncomputable section

namespace Cert.ReferenceIdeal.RefFinal

open Cert.ReferenceIdeal Cert.ReferenceIdeal.Gen Cert.ReferenceIdeal.RefOps
open Idealize.ShloMosaic Idealize.ShloMosaic.TcCoe Idealize.ShloMosaic.StableHlo Idealize.SL.Sem

variable {F : FTy → Type} [FloatOps F]

/-- All the operations: the mask's, then the listing's. -/
theorem ops_split : (ops : List (HloOp τ sig (Elt F)))
    = headOps ++ List.flatten [t1_1, t1_2, t1_3, t1_4, t1_5, t1_6, t1_7, t1_8, t1_9, t1_10, t1_11, t1_12, t1_13, t1_14, t1_15, t1_16, t1_17, t1_18] := rfl

/-- The result buffer ends at the listing of the reference's mask of the incoming points. -/
theorem result_eq (V : Valuation τ sig (Elt F)) :
    after (ops (F := F)) V (main_v51 : DevRef τ sig) = Cert.KernelIdeal.Spec.tail (RSpec.refMask (V (main_arg0 : DevRef τ sig))) := by
  rw [ops_split, RefTail.after_append, RefTail.tail_result, head_mask]

/-- The points end as they came. -/
theorem arg0_eq (V : Valuation τ sig (Elt F)) :
    after (ops (F := F)) V (main_arg0 : DevRef τ sig) = V (main_arg0 : DevRef τ sig) := by
  rw [ops_split, RefTail.after_append, tail_arg0, head_arg0]

/-- Every weakly fair execution of the reference terminates with the result at the listing of its mask of the launched
    points, the points unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = Cert.KernelIdeal.Spec.tail (RSpec.refMask (m ((c.tc : Thread nD τ).loc main_arg0)))
      ∧ r.2.mem ((c.tc : Thread nD τ).loc main_arg0) = m ((c.tc : Thread nD τ).loc main_arg0) :=
  (θ_run defs _ _).mono (fun _ h c =>
      ⟨(h c main_v51).trans (result_eq (launchContents m c)), (h c main_arg0).trans (arg0_eq (launchContents m c))⟩)
    (run_main m ρ)

end Cert.ReferenceIdeal.RefFinal

end
-- ==== Proof.lean ====
/-
  The certificate's five claims.

  The kernel computes, block by block over an 8 x 8 grid, the 8192 x 8192 mask "distance below the cutoff and off the
  diagonal" from the Gram identity |p_i|^2 + |p_j|^2 - 2 <p_i, p_j>, and the host then lists the mask's set entries (rows
  over columns, padded with -1).  The reference computes the distances on the host, pushes the diagonal above the
  cutoff by adding six there, compares with the cutoff, and lists the set entries the same way.

  * The three frames: each program runs to the end without a fault and leaves the points unchanged.  The kernel's
    frame is proved once for any float instance (the run of the program through its region, the points' array handed
    to the region's two windows on it in two halves) and read at the word-level instance and at the extended reals.
  * No operation of the kernel was rewritten for the ideal reading, so there is nothing to preserve.
  * At the extended reals the two masks agree entry by entry: off the diagonal both are the same comparison of the
    same distance (adding 6 * 0 changes nothing); on the diagonal the kernel's entry is clear by its index test and the
    reference's because a square root is not negative, so the distance plus six is not below five.  The listing of
    the set entries is the same function of the mask in both programs.  No finiteness of the points is needed.
-/
import proofs.«166916_j89352499626116_1_alg».proof.Defs
import proofs.«166916_j89352499626116_1_alg».proof.Proof.Gen.Kernel
import proofs.«166916_j89352499626116_1_alg».proof.Proof.Gen.KernelIdeal
import proofs.«166916_j89352499626116_1_alg».proof.Proof.Gen.ReferenceIdeal
import proofs.«166916_j89352499626116_1_alg».proof.Proof.Gen.Pre_finite_inputs
import proofs.«166916_j89352499626116_1_alg».proof.Proof.KFrameB
import proofs.«166916_j89352499626116_1_alg».proof.Proof.KFrame
import proofs.«166916_j89352499626116_1_alg».proof.Proof.KValue
import proofs.«166916_j89352499626116_1_alg».proof.Proof.RefFinal

noncomputable section

namespace Cert.Proof

open Idealize.ShloMosaic Idealize.ShloMosaic.TcCoe Idealize.SL.Sem

/-- The word-level kernel program runs and leaves the points unchanged. -/
theorem frame_kernel : Cert.frame_Kernel (hKernel := Cert.Kernel.Gen.facts) (hPre_finite_inputs := Cert.Pre_finite_inputs.Gen.facts) :=
  fun m ρ _ => Cert.Kernel.KF.frame m ρ

/-- So does its reading at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.KF.frame m ρ

/-- The reference runs and leaves the points unchanged: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefFinal.run_value (F := Ideal) m ρ)

/-- Nothing of the kernel was rewritten for the ideal reading. -/
theorem preserves : Cert.preserves_Kernel_KernelIdeal := trivial

/-- From memories agreeing on the points, both programs end at the list of set entries of one mask. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Spec.tail (Cert.ReferenceIdeal.RSpec.refMask (F := Ideal)
      (m ((c.tc : Thread Cert.KernelIdeal.nD Cert.KernelIdeal.τ).loc Cert.KernelIdeal.main_arg0))),
    Cert.KernelIdeal.KV.run_value m ρ, ?_⟩
  refine (θ_run Cert.ReferenceIdeal.defs _ _).mono (fun _ h c => ⟨(h c).1.trans ?_, (h c).2⟩)
    (Cert.ReferenceIdeal.RefFinal.run_value (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
